-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 64
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x16, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000x16, .f32⟩
  | .hbm, ⟨31, _⟩ => ⟨S_, .f32⟩
  | .hbm, ⟨32, _⟩ => ⟨S100000x16, .f32⟩
  | .hbm, ⟨33, _⟩ => ⟨S3300000x1, .i32⟩
  | .hbm, ⟨34, _⟩ => ⟨S100000x16, .f32⟩
  | .hbm, ⟨35, _⟩ => ⟨S100000x16, .f32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S100000x2, .f32⟩
  | .hbm, ⟨44, _⟩ => ⟨S100000x2, .f32⟩
  | .hbm, ⟨45, _⟩ => ⟨S100000x2, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x2, .f32⟩
  | .hbm, ⟨55, _⟩ => ⟨S_, .f32⟩
  | .hbm, ⟨56, _⟩ => ⟨S100000x2, .f32⟩
  | .hbm, ⟨57, _⟩ => ⟨S3300000x1, .i32⟩
  | .hbm, ⟨58, _⟩ => ⟨S100000x2, .f32⟩
  | .hbm, ⟨59, _⟩ => ⟨S100000x2, .f32⟩
  | .hbm, ⟨60, _⟩ => ⟨S100000x2, .f32⟩
  | .hbm, ⟨61, _⟩ => ⟨S1x2, .f32⟩
  | .hbm, ⟨62, _⟩ => ⟨S100000x2, .f32⟩
  | .hbm, ⟨63, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000x1_S100000x2_0_1 : S100000x1.BroadcastsInDim S100000x2 (![0, 1] : Fin 2 → Fin S100000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x2, .f32⟩
  | .hbm, ⟨63, _⟩ => ⟨S_, .f32⟩
  | .hbm, ⟨64, _⟩ => ⟨S3300000, .f32⟩
  | .hbm, ⟨65, _⟩ => ⟨S_, .f32⟩
  | .hbm, ⟨66, _⟩ => ⟨S100000, .f32⟩
  | .hbm, ⟨67, _⟩ => ⟨S3300000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x2, .f32⟩
  | .hbm, ⟨98, _⟩ => ⟨S3300000x1, .f32⟩
  | .hbm, ⟨99, _⟩ => ⟨S3300000x2, .f32⟩
  | .hbm, ⟨100, _⟩ => ⟨S3300000x2, .f32⟩
  | .hbm, ⟨101, _⟩ => ⟨S_, .f32⟩
  | .hbm, ⟨102, _⟩ => ⟨S100000x2, .f32⟩
  | .hbm, ⟨103, _⟩ => ⟨S3300000x1, .i32⟩
  | .hbm, ⟨104, _⟩ => ⟨S100000x2, .f32⟩
  | .hbm, ⟨105, _⟩ => ⟨S1x2, .f32⟩
  | .hbm, ⟨106, _⟩ => ⟨S100000x2, .f32⟩
  | .hbm, ⟨107, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelTerms.lean ====
/-
  The host side of the kernel's program, written as functions of its arrays.

  Around its one region the program computes, on the host: the two stacked index vectors (the edge sources and
  the edge targets, each followed by the node numbers 0 … N − 1, which are the self loops), the inverse square
  root of every node's in-degree kept as a column, and, after the region has produced the scaled features
  (x · W₁) · d, two rounds of "look the source rows up, add them into their target rows, scale the rows by d, add
  the bias", with a positive part and a second, small product between the rounds.
-/
import proofs.«162736_j42374147342368_2_alg».proof.KernelIdeal

noncomputable section

namespace Cert.KernelIdeal.Terms

open Idealize.ShloMosaic Cert.KernelIdeal
open Cert.KernelIdeal.Facts₀ Cert.KernelIdeal.Facts

variable {F : FTy → Type} [FloatOps F] [Cert.KernelIdeal.Facts]

/-- Row `r` (0 for the sources, 1 for the targets) of the edge list followed by the node numbers. -/
def src3 (a1 : IVec S2x3200000 32) : IVec S3300000 32 :=
  concatenate S3300000 0 [⟨S3200000, (shapeCast _ (extractStridedSlice S1x3200000 ![0, 0] a1 slices_S2x3200000_S1x3200000_0_0) shapeCasts_S1x3200000_S3200000)⟩, ⟨S100000, (iotaInDim S100000 32 0)⟩] concatenates_S3200000_S100000_S3300000_d0

def dst6 (a1 : IVec S2x3200000 32) : IVec S3300000 32 :=
  concatenate S3300000 0 [⟨S3200000, (shapeCast _ (extractStridedSlice S1x3200000 ![1, 0] a1 slices_S2x3200000_S1x3200000_1_0) shapeCasts_S1x3200000_S3200000)⟩, ⟨S100000, (iotaInDim S100000 32 0)⟩] concatenates_S3200000_S100000_S3300000_d0

/-- A negative index counts from the end: v ↦ if v < 0 then v + N else v. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- An index vector as a one-column array. -/
def col (v : IVec S3300000 32) : IVec S3300000x1 32 :=
  broadcastInDim S3300000x1 ![0] bcast_S3300000_S3300000x1_0 v

/-- The in-degrees: one is added at every target. -/
def deg (v6 : IVec S3300000 32) : FVec F S100000 .f32 :=
  Host.scatterAdd scatter_S100000_S3300000x1_S3300000_n_0_0_1
    (broadcastInDim S100000 ![] bcast_S_S100000 (constant S_ .f32 0x00000000#32)) (col v6)
    (broadcastInDim S3300000 ![] bcast_S_S3300000 (constant S_ .f32 0x3F800000#32))

/-- d = deg^(−1/2), as a column. -/
def dcol (v6 : IVec S3300000 32) : FVec F S100000x1 .f32 :=
  broadcastInDim S100000x1 ![0] bcast_S100000_S100000x1_0 (Host.rsqrt (deg (F := F) v6))

/-- First round: rows of the scaled features looked up at the sources, added into the targets, scaled by d, plus b₁. -/
def out1 (v3 v6 : IVec S3300000 32) (v12 : FVec F S100000x1 .f32) (v13 : FVec F S100000x16 .f32) (a3 : FVec F S16 .f32) :
    FVec F S100000x16 .f32 :=
  addf (mulf (Host.scatterAdd scatter_S100000x16_S3300000x1_S3300000x16_1_0_0_1
      (broadcastInDim S100000x16 ![] bcast_S_S100000x16 (constant S_ .f32 0x00000000#32)) (col v6)
      (Host.gather gather_S100000x16_S3300000x1_S3300000x16_1_0_n_n_0_1_116 v13 (col (wrap v3))))
      (broadcastInDim S100000x16 ![0, 1] bcast_S100000x1_S100000x16_0_1 v12))
    (broadcastInDim S100000x16 ![0, 1] bcast_S1x16_S100000x16_0_1 (broadcastInDim S1x16 ![1] bcast_S16_S1x16_1 a3))

/-- The positive part. -/
def relu (x : FVec F S100000x16 .f32) : FVec F S100000x16 .f32 :=
  maximumf x (broadcastInDim S100000x16 ![] bcast_S_S100000x16 (constant S_ .f32 0x00000000#32))

/-- The second product, scaled by d. -/
def hs2 (h2 : FVec F S100000x16 .f32) (a4 : FVec F S16x2 .f32) (v12 : FVec F S100000x1 .f32) : FVec F S100000x2 .f32 :=
  mulf (Host.dotGeneral dot_S100000x16_S16x2_S100000x2_1_0_0_1_n_n none h2 a4)
    (broadcastInDim S100000x2 ![0, 1] bcast_S100000x1_S100000x2_0_1 v12)

/-- Second round, on two columns, plus b₂. -/
def out2 (v3 v6 : IVec S3300000 32) (v12 : FVec F S100000x1 .f32) (v32 : FVec F S100000x2 .f32) (a5 : FVec F S2 .f32) :
    FVec F S100000x2 .f32 :=
  addf (mulf (Host.scatterAdd scatter_S100000x2_S3300000x1_S3300000x2_1_0_0_1
      (broadcastInDim S100000x2 ![] bcast_S_S100000x2 (constant S_ .f32 0x00000000#32)) (col v6)
      (Host.gather gather_S100000x2_S3300000x1_S3300000x2_1_0_n_n_0_1_12 v32 (col (wrap v3))))
      (broadcastInDim S100000x2 ![0, 1] bcast_S100000x1_S100000x2_0_1 v12))
    (broadcastInDim S100000x2 ![0, 1] bcast_S1x2_S100000x2_0_1 (broadcastInDim S1x2 ![1] bcast_S2_S1x2_1 a5))

/-- Everything after the region, from the region's output `v13`. -/
def tail47 (v3 v6 : IVec S3300000 32) (v12 : FVec F S100000x1 .f32) (v13 : FVec F S100000x16 .f32)
    (a3 : FVec F S16 .f32) (a4 : FVec F S16x2 .f32) (a5 : FVec F S2 .f32) : FVec F S100000x2 .f32 :=
  out2 v3 v6 v12 (hs2 (relu (out1 v3 v6 v12 v13 a3)) a4 v12) a5

end Cert.KernelIdeal.Terms

end
-- ==== Proof.KernelRun.lean ====
/-
  The kernel program's run, with its result named.

  The program is three parts: host operations that prepare the stacked edge vectors and the degree column d, one
  pipelined region that writes the scaled features (x · W₁) · d, and a host tail that turns those into the second
  layer's output. Read as functions of the buffers they start from, the first part leaves `src3`, `dst6` and `dcol`
  of the edge list, and the tail leaves `tail47` of those three, of the region's output array and of the three
  remaining arguments. The run then says: every weakly fair execution ends with that value in the result buffer and
  with the six arguments as launched.
-/
import proofs.«162736_j42374147342368_2_alg».proof.Proof.Gen.KernelIdeal.Frame
import proofs.«162736_j42374147342368_2_alg».proof.Proof.KernelTerms
import Idealize.ShloMosaic.Lib.StableHlo.Run

noncomputable section

namespace Cert.KernelIdeal.KRun

open Idealize.ShloMosaic Idealize.ShloMosaic.TcCoe Idealize.SL.Sem Cert.KernelIdeal Cert.KernelIdeal.Gen Cert.KernelIdeal.Terms

/-! ## The host operations as functions of any starting contents -/

section Abstract

variable {F : FTy → Type} [FloatOps F] (W : Valuation τ sig (Elt F))

/-- The operations before the region leave the stacked sources where the program keeps them. -/
theorem pre_v3 : StableHlo.after (hostOps0 (F := F)) W (Proc.devRef .tc main_v3) = src3 (W (Proc.devRef .tc main_arg1)) := by
  after_results; rfl

/-- … the stacked targets, -/
theorem pre_v6 : StableHlo.after (hostOps0 (F := F)) W (Proc.devRef .tc main_v6) = dst6 (W (Proc.devRef .tc main_arg1)) := by
  after_results; rfl

/-- … and the column d of the targets' degrees. -/
theorem pre_v12 : StableHlo.after (hostOps0 (F := F)) W (Proc.devRef .tc main_v12)
    = dcol (F := F) (dst6 (W (Proc.devRef .tc main_arg1))) := by
  after_results; rfl

/-- The whole tail, from any contents: the three stretches after the region, run as one line, leave in the result
    buffer `tail47` of what the seven buffers they read from outside held. -/
theorem tail_after : StableHlo.after ((hostOps1 (F := F)) ++ (hostOps1_1 ++ hostOps1_2)) W (Proc.devRef .tc main_v47)
    = tail47 (F := F) (W (Proc.devRef .tc main_v3)) (W (Proc.devRef .tc main_v6)) (W (Proc.devRef .tc main_v12))
        (W (Proc.devRef .tc main_v13)) (W (Proc.devRef .tc main_arg3)) (W (Proc.devRef .tc main_arg4)) (W (Proc.devRef .tc main_arg5)) := by
  simp only [hostOps1, hostOps1_1, hostOps1_2, List.cons_append, List.nil_append]
  after_results_simp
  rfl

end Abstract

/-! ## The program's own buffers -/

section Concrete

variable {F : FTy → Type} [FloatOps F] (m : (ℓ : Loc nD τ sig) → Buf (Elt F) ℓ)

/-- When the region is entered the stacked sources are `src3` of the edge list as launched, -/
theorem V_v3 (c : Dev nD) : Gen.V m c main_v3 = src3 (m ((c.tc : Thread nD τ).loc main_arg1)) := by
  show StableHlo.after hostOps0 (fun b => m (c, b)) (Proc.devRef .tc main_v3) = _
  exact pre_v3 _

/-- the stacked targets `dst6` of it, -/
theorem V_v6 (c : Dev nD) : Gen.V m c main_v6 = dst6 (m ((c.tc : Thread nD τ).loc main_arg1)) := by
  show StableHlo.after hostOps0 (fun b => m (c, b)) (Proc.devRef .tc main_v6) = _
  exact pre_v6 _

/-- and the region's third window reads the column d of the targets' degrees. -/
theorem V_v12 (c : Dev nD) : Gen.V m c main_v12 = dcol (F := F) (dst6 (m ((c.tc : Thread nD τ).loc main_arg1))) := by
  show StableHlo.after hostOps0 (fun b => m (c, b)) (Proc.devRef .tc main_v12) = _
  exact pre_v12 _

/-- The tail starts from the region's arrays as the region leaves them and from every other buffer as the region found
    it; of the seven buffers it reads, the degree column is an input array of the region (unchanged by it), the scaled
    features are its output array, and the other five bypass it. -/
theorem tail_v47 (c : Dev nD) :
    Pipeline.afterTail₀ cfgs (Gen.dats (F := F) m) 0 (Gen.V0 m) [hostOps1, hostOps1_1, hostOps1_2] c main_v47
      = tail47 (F := F) (src3 (m ((c.tc : Thread nD τ).loc main_arg1))) (dst6 (m ((c.tc : Thread nD τ).loc main_arg1)))
          (dcol (F := F) (dst6 (m ((c.tc : Thread nD τ).loc main_arg1)))) ((Gen.dats m 0 c).arrAt 3 cfg0.N)
          (m ((c.tc : Thread nD τ).loc main_arg3)) (m ((c.tc : Thread nD τ).loc main_arg4)) (m ((c.tc : Thread nD τ).loc main_arg5)) := by
  have h3 := (Pipeline.withArrays_of_ne spec0 c (V0 m c) (fun w => (dats m 0 c).arrAt w cfg0.N) main_v3
    (by exact (by decide : ∀ w, Pipeline.arrRef spec0 w ≠ main_v3))).trans (V_v3 m c)
  have h6 := (Pipeline.withArrays_of_ne spec0 c (V0 m c) (fun w => (dats m 0 c).arrAt w cfg0.N) main_v6
    (by exact (by decide : ∀ w, Pipeline.arrRef spec0 w ≠ main_v6))).trans (V_v6 m c)
  have h12 : Pipeline.withArrays spec0 c (V0 m c) (fun w => (dats m 0 c).arrAt w cfg0.N) (Proc.devRef .tc main_v12)
      = dcol (F := F) (dst6 (m ((c.tc : Thread nD τ).loc main_arg1))) :=
    (Pipeline.withArrays_arr spec0 launch0.win.arr_inj c (V0 m c) (fun w => (dats m 0 c).arrAt w cfg0.N) 2).trans
      (((dats m 0 c).arrAt_in 2 rfl _).trans ((A_eq m c 2).trans (V_v12 m c)))
  have h13 : Pipeline.withArrays spec0 c (V0 m c) (fun w => (dats m 0 c).arrAt w cfg0.N) (Proc.devRef .tc main_v13)
      = (dats m 0 c).arrAt 3 cfg0.N :=
    Pipeline.withArrays_arr spec0 launch0.win.arr_inj c (V0 m c) (fun w => (dats m 0 c).arrAt w cfg0.N) 3
  have ha3 := (Pipeline.withArrays_of_ne spec0 c (V0 m c) (fun w => (dats m 0 c).arrAt w cfg0.N) main_arg3
    (by exact (by decide : ∀ w, Pipeline.arrRef spec0 w ≠ main_arg3))).trans (V_main_arg3 m c)
  have ha4 := (Pipeline.withArrays_of_ne spec0 c (V0 m c) (fun w => (dats m 0 c).arrAt w cfg0.N) main_arg4
    (by exact (by decide : ∀ w, Pipeline.arrRef spec0 w ≠ main_arg4))).trans (V_main_arg4 m c)
  have ha5 := (Pipeline.withArrays_of_ne spec0 c (V0 m c) (fun w => (dats m 0 c).arrAt w cfg0.N) main_arg5
    (by exact (by decide : ∀ w, Pipeline.arrRef spec0 w ≠ main_arg5))).trans (V_main_arg5 m c)
  unfold Pipeline.afterTail₀
  simp only [List.flatten_cons, List.flatten_nil, List.append_nil]
  show StableHlo.after (hostOps1 ++ (hostOps1_1 ++ hostOps1_2))
      (Pipeline.withArrays spec0 c (V0 m c) fun w => (dats m 0 c).arrAt w cfg0.N) (Proc.devRef .tc main_v47) = _
  rw [tail_after, h3, h6, h12, h13, ha3, ha4, ha5]

/-! ## The run -/

/-- At the compiled mesh, for any values, from any memory with zero counters: every weakly fair execution of the
    program terminates; the result buffer then holds `tail47` of the host chain's values and of the region's output
    array, and the six arguments are as launched. The region's run puts every array of the pipeline at what the proof
    data compute and every other unscoped buffer at what the tail leaves there; the result buffer is one of the latter
    (`tail_v47`), and the arguments are read as in the generated frame. -/
theorem run (ρ : Dev nD → PrngReg) :
    θ_run (defs (F := F)) (onTc (τ := τ) (main (F := F))) ⟨m, fun _ => 0, ρ⟩ (fun r => ∀ c : Dev nD,
      r.2.mem ((c.tc : Thread nD τ).loc main_v47)
        = tail47 (F := F) (src3 (m ((c.tc : Thread nD τ).loc main_arg1))) (dst6 (m ((c.tc : Thread nD τ).loc main_arg1)))
            (dcol (F := F) (dst6 (m ((c.tc : Thread nD τ).loc main_arg1)))) ((Gen.dats m 0 c).arrAt 3 cfg0.N)
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v47 (Pipeline.mem_restRefs_of main_v47 (by decide) (by decide))).trans (tail_v47 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Concrete

end Cert.KernelIdeal.KRun

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibColumn.lean ====
/-
  A column kept beside its matrix: the two layout steps of a keep-dimension reduction, read at an index.

  A vector of `a` entries cast to an `a × 1` column reads, at row p, the vector's entry p; an `a × 1` column broadcast
  over `b` columns reads, at (p, c), the column's entry at row p. Together: a per-row quantity (a row's maximum, a
  row's sum) placed beside every entry of its row.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast over the columns reads, at `(p, c)`, the vector at `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KernelBlocks.lean ====
/-
  What the region leaves in its output array, as one function of the three arrays it reads.

  The region runs over twenty grid points. At point t it reads rows 5000·t … 5000·t + 4999 of the features x and of
  the column d, and the whole of the weights W, and writes rows 5000·t … 5000·t + 4999 of the output: the block's
  product (x_t · W), exact on the extended reals, times the column broadcast over the sixteen output columns. The
  twenty row blocks tile the 100000 rows, so the output array ends holding

      hs x W d (r, c) = (∑ k, x (r, k) · W (k, c)) · d (r, 0)

  at every index.
-/
import proofs.«162736_j42374147342368_2_alg».proof.Proof.Gen.KernelIdeal.Frame
import proofs.«162736_j42374147342368_2_alg».proof.Proof.LibPlainDot
import proofs.«162736_j42374147342368_2_alg».proof.Proof.LibColumn
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Idealize.SL.Sem
open Cert.KernelIdeal Cert.KernelIdeal.Gen
open Idealize.ShloMosaic.Pipeline (Dat)

/-- The scaled features: entry (r, c) is (∑ k, x (r, k) * W (k, c)) * d (r, 0). -/
def hs (x : S100000x512.Idx → EReal) (W : S512x16.Idx → EReal) (d : S100000x1.Idx → EReal) : S100000x16.Idx → EReal :=
  fun j => (∑ k : Fin 512, x (ix2 (n0 := 100000) (n1 := 512) (j 0) k) * W (ix2 (n0 := 512) (n1 := 16) k (j 1)))
    * d (ix2 (n0 := 100000) (n1 := 1) (j 0) (0 : Fin 1))

/-- The scaled features at named coordinates. -/
theorem hs_apply (x : S100000x512.Idx → EReal) (W : S512x16.Idx → EReal) (d : S100000x1.Idx → EReal)
    (r : Fin 100000) (q : Fin 16) :
    hs x W d (ix2 r q) = (∑ k : Fin 512, x (ix2 r k) * W (ix2 k q)) * d (ix2 r (0 : Fin 1)) := rfl

/-! ## The body's payload at an index -/

/-- The record of the body's product is the plain product's dimension numbers. -/
theorem dot_eq : dot_S5000x512_S512x16_S5000x16_1_0_0_1_n_n
    = PlainDot.dims 5000 512 16 Gen.dot_S5000x512_S512x16_S5000x16_1_0_0_1_n_n_wf := rfl

/-- One block's result at (p, q): the block's product at (p, q), exact, times the column's entry at row p. The two
    changes of format are the identity on the extended reals, the cast to the same shape is the identity, and the
    column is broadcast along the rows. -/
theorem pay_apply (x0 : Vec Ideal S5000x512 .f32) (x1 : Vec Ideal S512x16 .f32) (x2 : Vec Ideal S5000x1 .f32)
    (p : Fin 5000) (q : Fin 16) :
    Gen.k0_pay1 x0 x1 x2 (ix2 p q) = (∑ k : Fin 512, x0 (ix2 p k) * x1 (ix2 k q)) * x2 (ix2 p (0 : Fin 1)) := by
  unfold Gen.k0_pay1
  rw [mulf_apply, shapeCast_self, Column.broadcastTo_a1_ab_apply, dot_eq]
  refine congrArg (· * x2 (ix2 p (0 : Fin 1))) ?_
  exact PlainDot.matmul_zero_apply _ none (truncf .bf16 x0 _) (truncf .bf16 x1 _) p q

/-! ## Where each window's block sits in its array -/

/-- The zero offsets of the body's whole-buffer loads and its one store. -/
theorem hz : (![0, 0] : Fin 2 → Nat) = fun _ => 0 := funext fun a => by fin_cases a <;> rfl

/-- The index maps over the twenty points: the features', the column's and the output's row block is the point's
    number and their column block is 0; the weights' block is (0, 0) throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block is row 5000·t + p of a 100000-row array. -/
theorem row_lt (t : Fin cfg0.N) (p : Fin 5000) : t.val * 5000 + p.val < 100000 := by
  have hN : cfg0.N = 20 := N_0
  have ht := t.isLt
  have hp := p.isLt
  omega

/-- Entry (p, k) of the features' block at point t is entry (5000·t + p, k) of the array. -/
theorem emb0 (t : Fin cfg0.N) (p : Fin 5000) (k : Fin 512) :
    ((cfg0.win 0).blk t).view.emb (ix2 p k) = (ix2 ⟨t.val * 5000 + p.val, row_lt t p⟩ k : S100000x512.Idx) := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 512 + 1 * k.val = k.val; omega

/-- The weights' block is the whole array at every point. -/
theorem emb1 (t : Fin cfg0.N) (k : Fin 512) (q : Fin 16) :
    ((cfg0.win 1).blk t).view.emb (ix2 k q) = (ix2 k q : S512x16.Idx) := by
  obtain ⟨-, -, e2, e3, -⟩ := idx_facts t
  funext a; apply Fin.ext
  match a with
  | ⟨0, _⟩ => show win0_1.index t (0 : Fin 2) * 512 + 1 * k.val = k.val; omega
  | ⟨1, _⟩ => show win0_1.index t (1 : Fin 2) * 16 + 1 * q.val = q.val; omega

/-- Entry (p, 0) of the column's block at point t is entry (5000·t + p, 0) of the column. -/
theorem emb2 (t : Fin cfg0.N) (p : Fin 5000) (u : Fin 1) :
    ((cfg0.win 2).blk t).view.emb (ix2 p u) = (ix2 ⟨t.val * 5000 + p.val, row_lt t p⟩ u : S100000x1.Idx) := by
  obtain ⟨-, -, -, -, e4, e5, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

/-- Entry (p, q) of the output's block at point t is entry (5000·t + p, q) of the array. -/
theorem emb3 (t : Fin cfg0.N) (p : Fin 5000) (q : Fin 16) :
    ((cfg0.win 3).blk t).view.emb (ix2 p q) = (ix2 ⟨t.val * 5000 + p.val, row_lt t p⟩ q : S100000x16.Idx) := by
  obtain ⟨-, -, -, -, -, -, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 16 + 1 * q.val = q.val; omega

/-! ## Reading a block of an array -/

/-- The output window writes back all of its buffer: the part it moves, at (p, q), is the buffer's entry (p, q). -/
theorem cut3_apply {α : Type} (t : Fin cfg0.N) (X : S5000x16.Idx → α) (p : Fin 5000) (q : Fin 16) :
    (cfg0.win 3).cut (grid0.coords t) X (ix2 p q) = X (ix2 p q) := by
  show X _ = X _
  refine congrArg X ?_
  funext a
  match a with
  | ⟨0, _⟩ => rfl
  | ⟨1, _⟩ => rfl

/-- Point t's block of a 100000 × 512 array, at (p, k), is the array at (5000·t + p, k). -/
theorem read0_apply (t : Fin cfg0.N) (A : S100000x512.Idx → EReal) (p : Fin 5000) (k : Fin 512) :
    ((cfg0.win 0).blk t).view.read (Elt Ideal) A (ix2 p k) = A (ix2 ⟨t.val * 5000 + p.val, row_lt t p⟩ k) := by
  rw [View.read_apply, emb0 t p k]
  rfl

/-- Point t's block of the 512 × 16 array is the array. -/
theorem read1_apply (t : Fin cfg0.N) (A : S512x16.Idx → EReal) (k : Fin 512) (q : Fin 16) :
    ((cfg0.win 1).blk t).view.read (Elt Ideal) A (ix2 k q) = A (ix2 k q) := by
  rw [View.read_apply, emb1 t k q]
  rfl

/-- Point t's block of a 100000 × 1 column, at (p, u), is the column at (5000·t + p, u). -/
theorem read2_apply (t : Fin cfg0.N) (A : S100000x1.Idx → EReal) (p : Fin 5000) (u : Fin 1) :
    ((cfg0.win 2).blk t).view.read (Elt Ideal) A (ix2 p u) = A (ix2 ⟨t.val * 5000 + p.val, row_lt t p⟩ u) := by
  rw [View.read_apply, emb2 t p u]
  rfl

/-- Point t's block of a 100000 × 16 array, at (p, q), is the array at (5000·t + p, q). -/
theorem read3_apply (t : Fin cfg0.N) (A : S100000x16.Idx → EReal) (p : Fin 5000) (q : Fin 16) :
    ((cfg0.win 3).blk t).view.read (Elt Ideal) A (ix2 p q) = A (ix2 ⟨t.val * 5000 + p.val, row_lt t p⟩ q) := by
  rw [View.read_apply, emb3 t p q]
  rfl

/-! ## What a point writes back, and the array after the run -/

/-- The body's result on point t's blocks of three arrays is point t's block of their scaled features: row p of the
    block is row 5000·t + p of the arrays, the block's product runs over the same 512 terms, and the column's entry
    is that of the same row. -/
theorem block_value (t : Fin cfg0.N) (A0 : S100000x512.Idx → EReal) (A1 : S512x16.Idx → EReal)
    (A2 : S100000x1.Idx → EReal) :
    (cfg0.win 3).cut (grid0.coords t)
        (k0_pay1 (((cfg0.win 0).blk t).view.read (Elt Ideal) A0) (((cfg0.win 1).blk t).view.read (Elt Ideal) A1)
          (((cfg0.win 2).blk t).view.read (Elt Ideal) A2))
      = ((cfg0.win 3).blk t).view.read (Elt Ideal) (hs A0 A1 A2) := by
  funext j
  obtain ⟨p, q, rfl⟩ : ∃ (p : Fin 5000) (q : Fin 16), j = ix2 p q := ⟨j 0, j 1, eq_ix2 j⟩
  refine (cut3_apply t _ p q).trans ?_
  refine (pay_apply _ _ _ p q).trans ?_
  refine Eq.trans ?_ (read3_apply t (hs A0 A1 A2) p q).symm
  rw [hs_apply, read2_apply t A2 p 0]
  refine congrArg (· * A2 (ix2 ⟨t.val * 5000 + p.val, row_lt t p⟩ (0 : Fin 1))) ?_
  exact Finset.sum_congr rfl fun k _ => by rw [read0_apply t A0 p k, read1_apply t A1 k q]

variable (m : (ℓ : Loc nD τ sig) → Buf (Elt Ideal) ℓ)

/-- What point t writes back is block t of the scaled features of the three arrays as the region finds them. -/
theorem flushed_eq (c : Dev nD) (t : Fin cfg0.N) :
    (dats m 0 c).flushed 3 t
      = ((cfg0.win 3).blk t).view.read (Elt Ideal) (hs (V m c main_arg0) (V m c main_arg2) (V m c main_v12)) := by
  show (cfg0.win 3).cut (grid0.coords t) ((dats m 0 c).after 3 t) = _
  rw [after0_3]
  unfold out0_3
  rw [View.canon_unit_zero hz]
  simp only [View.ld_unit_zero (S := S5000x512) hz, View.ld_unit_zero (S := S512x16) hz,
    View.ld_unit_zero (S := S5000x1) hz]
  unfold iblk
  exact block_value t (V m c main_arg0) (V m c main_arg2) (V m c main_v12)

/-- An index of the output array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v13).slice (win0_3.rect t)).set ↔ _
  rw [View.set_slice_whole, Rect.mem_set_unit]
  exact Iff.rfl

/-- The twenty row blocks tile the array: row r is in the block of point r / 5000, which writes back. -/
theorem cover (i : S100000x16.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 16 := (i 1).isLt
  obtain ⟨t, ht⟩ : ∃ t : Fin cfg0.N, t.val = (i 0).val / 5000 := ⟨⟨(i 0).val / 5000, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 16 ≤ (i 1).val ∧ (i 1).val < win0_3.index t (1 : Fin 2) * 16 + 16
    omega

/-- THE OUTPUT ARRAY after the region: the scaled features of the three arrays as the region finds them. -/
theorem final3 (c : Dev nD) :
    (Gen.dats (F := Ideal) m 0 c).arrAt 3 cfg0.N
      = hs (Gen.V m c main_arg0) (Gen.V m c main_arg2) (Gen.V m c main_v12) :=
  (dats m 0 c).arrAt_eq_of_cover 3 (hs (V m c main_arg0) (V m c main_arg2) (V m c main_v12))
    (fun t _ => flushed_eq m c t) (fun i => cover i)

end Cert.KernelIdeal.Blocks

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.LibVecGatherScatter.lean ====
/-
  Gather and scatter-add of a vector, read at an index.

  What `x[idx]` of a vector `x : [N]` at an integer vector `idx : [E]` (carried as `[E, 1]`) lowers to is a
  `stablehlo.gather` of single elements: result element `e` is `x` at `idx[e]` (read signed, clamped into
  `[0, N − 1]`). What a segment sum of `upd : [E]` into `[N]` lowers to is a `stablehlo.scatter` with an `add` body:
  operand element `n` receives every `upd e` whose index `idx[e]`, read signed and not clamped, is exactly `n`.
-/
import Idealize.ShloMosaic.Lib.ValueIdx
import Idealize.ShloMosaic.PureOps.Ideal

noncomputable section

open scoped BigOperators

namespace Cert.VecOps

open Idealize.ShloMosaic Idealize.ShloMosaic.ValueIdx

/-! ## The element gather -/

/-- The dimension numbers of an element gather: operand `[N]`, start indices `[E, 1]`, result `[E]`; no offset axis,
    the operand's one axis collapsed, the start index naming it, slices of one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element the gather reads for edge `e`: the start index read signed and clamped into `[0, N − 1]`. -/
def gatherElt {N E w : Nat} (hN : 0 < N) (idx : IVec ⟨2, ![E, 1]⟩ w) (e : Fin E) : Fin N :=
  ⟨min (idx (ix2 e 0)).toInt.toNat (N - 1), by omega⟩

/-- The element gather at `e` is the operand at `gatherElt e` (the clamped start index). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherElt hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## The element scatter-add -/

/-- The dimension numbers of an element scatter: operand `[N]`, scatter indices `[E, 1]`, updates `[E]`; no update
    window axis, the operand's one axis inserted, the scatter index naming it. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- The operand axes the update windows go to are the ones that are not inserted. -/
theorem vecScatter_mem_sKept (a : Fin 1) :
    a ∈ (vecScatterDims N E wf).sKept ↔ a ∉ (vecScatterDims N E wf).insertedWindowDims := by
  simp [ScatterDims.sKept, Shape.kept, List.mem_filter, List.mem_finRange]

/-- The window of update `e` starts at the scatter index `idx[e]`, read signed. -/
theorem vecScatter_start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's axis is an inserted one: the window coordinate there is `0`. -/
theorem vecScatter_window0 (e : Fin E) : (vecScatterDims N E wf).window (ix1 e) 0 = 0 := by
  unfold ScatterDims.window
  rw [dif_neg (fun h => ((vecScatter_mem_sKept wf 0).mp h) (List.mem_singleton.mpr rfl))]

end Scatter

/-- Update `e` lands on operand element `n` exactly when the scatter index `idx[e]`, read signed, is `n`. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e 0)).toInt = (n.val : Int) := by
  have hn := n.isLt
  unfold ScatterDims.resultIdx?
  constructor
  · intro h
    by_cases hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a
    · rw [dif_pos hall] at h
      have heq := Option.some.inj h
      have h0 : ((vecScatterDims N E wf).start (ix1 e) idx 0 + (vecScatterDims N E wf).window (ix1 e) 0).toNat
          = n.val := congrArg (fun f => (f 0).val) heq
      have b0 := (hall 0).1
      rw [vecScatter_start0, vecScatter_window0] at h0 b0
      omega
    · rw [dif_neg hall] at h
      exact absurd h (by simp)
  · intro hi
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [vecScatter_start0, vecScatter_window0, hi]
        omega
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [vecScatter_start0, vecScatter_window0, hi]
      omega

/-- THE ELEMENT SCATTER-ADD AT `n`: the operand element plus the sum of the update elements `upd e` over the edges
    `e` whose scatter index `idx[e]`, read signed and not clamped, is `n`. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n)
        + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    obtain ⟨a, rfl⟩ : ∃ (a : Fin E), j = ix1 a := ⟨j 0, eq_ix1 j⟩
    exact Finset.mem_filter.mpr ⟨Finset.mem_univ _, (vecScatter_resultIdx_iff wf idx a n).mp (Finset.mem_filter.mp hj).2⟩
  · intro e he
    exact Finset.mem_filter.mpr ⟨Finset.mem_univ _, (vecScatter_resultIdx_iff wf idx e n).mpr (Finset.mem_filter.mp he).2⟩
  · intro j _
    exact (eq_ix1 j).symm
  · intro e _
    rfl
  · intro j _
    exact congrArg upd (eq_ix1 j)

end Cert.VecOps

end
-- ==== Proof.LibKeepdims.lean ====
/-
  Row statistics kept as a column.

  A row-wise reduction of an `[a, b]` matrix gives one number per row; kept as an `[a, 1]` column and broadcast
  back over the `b` columns, every entry of row `p` sees row `p`'s number. These are the three index facts of
  that pattern: the reduced index with the column put back, the vector cast to a column, the column broadcast
  over the columns.
-/
import Idealize.ShloMosaic.PureOps.Ideal
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- The row index `p` with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the columns of an `[a, b]` matrix, read at row `p`, is the sum of that row's entries. -/
theorem rowSum_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-- An `[a]` vector cast to an `[a, 1]` column reads, at `(p, u)`, the vector at `p`. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibHostRows.lean ====
/-
  The host's `broadcast_in_dim` for the row and column patterns, read at an index.

  A per-row quantity `[a]` becomes a column `[a, 1]` (dims `[0]`) and is repeated along the rows of an `[a, b]` matrix
  (dims `[0, 1]`); a per-column quantity `[b]` becomes a row `[1, b]` (dims `[1]`) and is repeated down the rows (dims
  `[0, 1]`); a scalar is repeated over a vector (no dims). Stated for every extent. And the host's float sum along the columns of a
  matrix, read at a row: the initial value plus the sum of the row's entries.
-/
import Idealize.ShloMosaic.PureOps.Ideal
import Idealize.ShloMosaic.PureOps.Ideal.Laws
import Idealize.ShloMosaic.Lib.ValueIdx
import Idealize.ShloMosaic.Lib.Pipeline.Value
import proofs.«162736_j42374147342368_2_alg».proof.Proof.LibKeepdims

noncomputable section

namespace Idealize.ShloMosaic.HostRows

open Idealize.ShloMosaic Idealize.ShloMosaic.ValueIdx

variable {α : Type}

/-- An `[a]` vector made an `[a, 1]` column reads, at `(p, u)`, the vector at `p`. -/
theorem bcast_a_a1_apply {a : Nat} (dims : Fin 1 → Fin 2) (hd : dims 0 = 0)
    (h : (⟨1, ![a]⟩ : Shape).BroadcastsInDim ⟨2, ![a, 1]⟩ dims)
    (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims 0)).val
    rw [hd]
    split
    · have := p.isLt; omega
    · rfl

/-- An `[a, 1]` column repeated along the rows of an `[a, b]` matrix reads, at `(p, c)`, the column at row `p`. -/
theorem bcast_a1_ab_apply {a b : Nat} (dims : Fin 2 → Fin 2) (hd0 : dims 0 = 0)
    (h : (⟨2, ![a, 1]⟩ : Shape).BroadcastsInDim ⟨2, ![a, b]⟩ dims)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd0]
    split
    · have := p.isLt; omega
    · rfl
  | ⟨1, _⟩ => rfl

/-- A `[b]` vector made a `[1, b]` row reads, at `(u, c)`, the vector at `c`. -/
theorem bcast_b_1b_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims 0)).val
    rw [hd]
    split
    · have := c.isLt; omega
    · rfl

/-- A `[1, b]` row repeated down the rows of an `[a, b]` matrix reads, at `(p, c)`, the row at column `c`. -/
theorem bcast_1b_ab_apply {a b : Nat} (dims : Fin 2 → Fin 2) (hd1 : dims 1 = 1)
    (h : (⟨2, ![1, b]⟩ : Shape).BroadcastsInDim ⟨2, ![a, b]⟩ dims)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd1]
    split
    · have := c.isLt; omega
    · rfl

/-- A scalar repeated over a vector reads the scalar everywhere. -/
theorem bcast_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- The host's float sum along the columns of an `[a, b]` matrix, read at row `p`: the initial value plus the sum of
    that row's entries. -/
theorem hostRowSum_apply {a b : Nat} {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduceAdd x init h' hu (ix1 p) = init (Shape.Idx.first hu) + ∑ k : Fin b, x (ix2 p k) := by
  refine (Ideal.hostReduceAdd_single h' h x (init (Shape.Idx.first hu)) (ix1 p)).trans ?_
  exact congrArg (fun s => init (Shape.Idx.first hu) + s)
    (Finset.sum_congr rfl fun k _ => congrArg x (Keepdims.lift_row h p k))

end Idealize.ShloMosaic.HostRows

end
-- ==== Proof.LibFinite.lean ====
/-
  Which host operations keep an array of extended reals inside the real numbers.

  The exact operations on the extended reals agree with the textbook ones on the reals, and leave the reals only at a
  few corners: a division by zero, a reciprocal square root of a number that is not positive, a power of a negative base.
  An array all of whose entries are reals stays so under every host operation a message-passing layer uses: an entry of
  a gather, a broadcast, a concatenation or a select is an entry of an operand; an entry of a scatter-add, of a sum over
  an axis or of a matrix product is a finite sum of entries, or of products of entries, of the operands; sums, differences,
  products and maxima of reals are reals; a power of two reals is the real power; a quotient by a real that is not zero is
  a product with its reciprocal; the reciprocal square root of a positive real is a real.
-/
import Idealize.ShloMosaic.PureOps.Ideal.Laws

namespace Cert.LibFinite

open Idealize.ShloMosaic

/-- An extended real that is a real number. -/
abbrev IsReal (x : EReal) : Prop := ∃ r : ℝ, x = (r : EReal)

/-- A family of extended reals all of whose members are real numbers. -/
abbrev AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of reals is a real. -/
theorem isReal_sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- A quotient of reals by a real that is not zero is a real. -/
theorem IsReal.div {x y : EReal} (hx : IsReal x) (hy : IsReal y) (h0 : y ≠ 0) : IsReal (Ideal.div x y) := by
  obtain ⟨b, rfl⟩ := hy
  have hb : b ≠ 0 := fun h => h0 (by rw [h]; rfl)
  rw [Ideal.div_coe hb]
  exact hx.mul (isReal_coe _)

/-- A power of two reals is the real power. -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-- The reciprocal square root of a positive real is a real. -/
theorem isReal_rsqrt {x : EReal} (hx : IsReal x) (hpos : 0 < x) : IsReal (Ideal.rsqrt x) := by
  obtain ⟨a, rfl⟩ := hx
  have ha : 0 < a := by exact_mod_cast hpos
  rw [Ideal.rsqrt_coe, if_neg (not_lt.mpr ha.le), if_neg ha.ne']
  exact isReal_coe _

/-- A select returns one of its two last operands. -/
theorem isReal_select (c : BitVec 1) {x y : EReal} (hx : IsReal x) (hy : IsReal y) : IsReal (Scalar.select c x y) := by
  unfold Scalar.select; split <;> assumption

/-- An `f32` pattern whose exponent field is not all ones denotes a real. -/
theorem isReal_ofBits_f32 (w : BitVec 32) (h : (w.extractLsb' 23 8).toNat ≠ 255) : IsReal (Ideal.ofBits .f32 w) := by
  show IsReal (Ideal.ieee 8 23 w)
  unfold Ideal.ieee
  simp only
  rw [if_neg (by simpa using h)]
  split <;> exact isReal_coe _

/-! ## Arrays -/

variable {s t : Shape} {φ : FTy}

theorem allReal_constant_f32 (w : BitVec 32) (h : (w.extractLsb' 23 8).toNat ≠ 255) :
    AllReal (constant (F := Ideal) s .f32 w) := fun _ => isReal_ofBits_f32 w h

theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_mulf {a b : FVec Ideal s φ} (ha : AllReal a) (hb : AllReal b) : AllReal (mulf a b) :=
  fun i => (ha i).mul (hb i)
theorem allReal_maximumf {a b : FVec Ideal s φ} (ha : AllReal a) (hb : AllReal b) : AllReal (maximumf a b) :=
  fun i => (ha i).max (hb i)
theorem allReal_select (c : IVec s 1) {a b : FVec Ideal s φ} (ha : AllReal a) (hb : AllReal b) : AllReal (select c a b) :=
  fun i => isReal_select (c i) (ha i) (hb i)
theorem allReal_powf {a b : FVec Ideal s φ} (ha : AllReal a) (hb : AllReal b) : AllReal (Host.powf a b) :=
  fun i => (ha i).pow (hb i)
theorem allReal_divf {a b : FVec Ideal s φ} (ha : AllReal a) (hb : AllReal b) (h0 : ∀ i, b i ≠ 0) :
    AllReal (Host.divf a b) :=
  fun i => (ha i).div (hb i) (h0 i)
theorem allReal_rsqrt {a : FVec Ideal s φ} (ha : AllReal a) (hpos : ∀ i, 0 < a i) : AllReal (Host.rsqrt a) :=
  fun i => isReal_rsqrt (ha i) (hpos i)

/-- An entry of a broadcast is an entry of the operand. -/
theorem allReal_broadcastInDim (dims : Fin s.rank → Fin t.rank) (h : s.BroadcastsInDim t dims) {x : s.Idx → EReal}
    (hx : AllReal x) : AllReal (broadcastInDim t dims h x) := fun _ => hx _

/-- An entry of a gather is an entry of the operand. -/
theorem allReal_gather {si : Shape} {w : Nat} (d : GatherDims s si t) {x : s.Idx → EReal} (idx : IVec si w)
    (hx : AllReal x) : AllReal (Host.gather d x idx) := fun _ => hx _

/-- An entry of a concatenation is an entry of one of the pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- An entry of a scatter-add is the operand's entry plus a finite sum of update entries. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- An entry of a sum over axes is the initial value plus a finite sum of operand entries. -/
theorem allReal_reduceAdd {axes : List (Fin s.rank)} {u : Shape} {x : FVec Ideal s φ} {init : u.Idx → Ideal φ}
    (h : s.ReducesTo axes t) (hu : 0 < u.numel) (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- An entry of a matrix product is a finite sum of products of operand entries. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact isReal_sum _ _ fun k _ => (hl _).mul (hr _)

end Cert.LibFinite
-- ==== Proof.LibGcnLayer.lean ====
/-
  A graph-convolution layer with the symmetric normalization, in two arrangements that agree on real data.

  A graph on N nodes is given by M pairs (source, target) of 32-bit words. A target word is used as it stands: a
  pair whose target, read signed, is not one of 0 … N − 1 is dropped. A source word is first wrapped ("a negative
  index counts from the end") and then clamped into 0 … N − 1. The in-degree deg n counts the pairs whose target is
  n, and d = deg^(−1/2).

  Arrangement one scales the rows of the features H by d before the rows are looked up at the sources and added into
  their targets, and scales the sums by d afterwards:  out (n, k) = (∑ over the pairs e with target n of
  (H · d) (source e, k)) · d n + b k.  Arrangement two gives every pair its own weight d (source e) · d (target e),
  the target wrapped and clamped like a source:  out (n, k) = ∑ over the same pairs of H (source e, k) · (d (source e)
  · d (target e)) + b k.  For a pair that is not dropped the wrapped and clamped target is n itself, so the two
  differ only by moving the factor d n across the sum: true on the reals, false in general on the extended reals.
  Hence the two arrangements are equal when H has real entries and every node is the target of at least one pair (so
  that deg ≥ 1 and d is a positive real). A layer with real H, d and b has real entries.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«162736_j42374147342368_2_alg».proof.Proof.LibRowGatherScatter
import proofs.«162736_j42374147342368_2_alg».proof.Proof.LibVecGatherScatter
import proofs.«162736_j42374147342368_2_alg».proof.Proof.LibHostRows
import proofs.«162736_j42374147342368_2_alg».proof.Proof.LibFinite

noncomputable section

open scoped BigOperators

namespace Cert.GcnLayer

open Idealize.ShloMosaic Idealize.ShloMosaic.ValueIdx Cert.RowOps Cert.VecOps Cert.LibFinite

/-! ## Sums of reals inside the extended reals -/

/-- A real factor moves across a finite sum of reals. -/
theorem sum_mul_of_real {ι : Type*} (s : Finset ι) (f : ι → EReal) (hf : ∀ i ∈ s, IsReal (f i)) {d : EReal}
    (hd : IsReal d) : (∑ i ∈ s, f i) * d = ∑ i ∈ s, f i * d := by
  classical
  obtain ⟨z, rfl⟩ := hd
  induction s using Finset.induction_on with
  | empty => simp
  | insert a s ha ih =>
    rw [Finset.sum_insert ha, Finset.sum_insert ha, ← ih (fun i hi => hf i (Finset.mem_insert_of_mem hi))]
    obtain ⟨x, hx⟩ := hf a (Finset.mem_insert_self a s)
    obtain ⟨y, hy⟩ := isReal_sum s f (fun i hi => hf i (Finset.mem_insert_of_mem hi))
    rw [hx, hy, ← EReal.coe_add, ← EReal.coe_mul, ← EReal.coe_mul, ← EReal.coe_mul, ← EReal.coe_add, add_mul]

section Layer

variable {N M C : Nat}

/-! ## The index words -/

/-- The wrap of negative indices, word by word: v ↦ if v < 0 then v + n else v. -/
def wrap (hb0M : (⟨0, ![]⟩ : Shape).BroadcastsInDim ⟨1, ![M]⟩ (![] : Fin 0 → Fin 1)) (nW : BitVec 32)
    (v : IVec ⟨1, ![M]⟩ 32) : IVec ⟨1, ![M]⟩ 32 :=
  select (cmpi .slt v (broadcastInDim ⟨1, ![M]⟩ ![] hb0M (constantI ⟨0, ![]⟩ 32 0#32)))
    (addi v (broadcastInDim ⟨1, ![M]⟩ ![] hb0M (constantI ⟨0, ![]⟩ 32 nW))) v

/-- An index vector as a one-column array. -/
def col {α : Type} (hbcol : (⟨1, ![M]⟩ : Shape).BroadcastsInDim ⟨2, ![M, 1]⟩ (![0] : Fin 1 → Fin 2))
    (v : (⟨1, ![M]⟩ : Shape).Idx → α) : (⟨2, ![M, 1]⟩ : Shape).Idx → α :=
  broadcastInDim ⟨2, ![M, 1]⟩ ![0] hbcol v

theorem col_apply {α : Type} (hbcol : (⟨1, ![M]⟩ : Shape).BroadcastsInDim ⟨2, ![M, 1]⟩ (![0] : Fin 1 → Fin 2))
    (v : (⟨1, ![M]⟩ : Shape).Idx → α) (e : Fin M) (u : Fin 1) : col hbcol v (ix2 e u) = v (ix1 e) :=
  HostRows.bcast_a_a1_apply ![0] rfl hbcol v e u

theorem wrap_apply (hb0M : (⟨0, ![]⟩ : Shape).BroadcastsInDim ⟨1, ![M]⟩ (![] : Fin 0 → Fin 1)) (nW : BitVec 32)
    (v : IVec ⟨1, ![M]⟩ 32) (e : Fin M) :
    wrap hb0M nW v (ix1 e)
      = Scalar.select (IntOp.cmpi .slt (v (ix1 e)) 0#32) (IntOp.addi (v (ix1 e)) nW) (v (ix1 e)) := rfl

/-- A word that is not negative is left as it is by the wrap. -/
theorem wrap_of_nonneg (hb0M : (⟨0, ![]⟩ : Shape).BroadcastsInDim ⟨1, ![M]⟩ (![] : Fin 0 → Fin 1)) (nW : BitVec 32)
    (v : IVec ⟨1, ![M]⟩ 32) (e : Fin M) (h : 0 ≤ (v (ix1 e)).toInt) : wrap hb0M nW v (ix1 e) = v (ix1 e) := by
  rw [wrap_apply]
  have hs : (v (ix1 e)).slt 0#32 = false := by
    rw [BitVec.slt]
    simp only [BitVec.toInt_zero, decide_eq_false_iff_not, not_lt]
    exact h
  have hc : IntOp.cmpi .slt (v (ix1 e)) 0#32 = 0#1 := by
    show BitVec.ofBool ((v (ix1 e)).slt 0#32) = 0#1
    rw [hs]; rfl
  rw [hc]
  unfold Scalar.select
  rw [if_neg (by decide)]

/-! ## The degrees -/

section Degrees

variable (hb0M : (⟨0, ![]⟩ : Shape).BroadcastsInDim ⟨1, ![M]⟩ (![] : Fin 0 → Fin 1))
  (hb0N : (⟨0, ![]⟩ : Shape).BroadcastsInDim ⟨1, ![N]⟩ (![] : Fin 0 → Fin 1))
  (hbcol : (⟨1, ![M]⟩ : Shape).BroadcastsInDim ⟨2, ![M, 1]⟩ (![0] : Fin 1 → Fin 2))
  (wfSv : ScatterDims.WF ⟨1, ![N]⟩ ⟨2, ![M, 1]⟩ ⟨1, ![M]⟩ [] [0] [0] 1)

/-- The in-degrees: one is added at every target. -/
def deg (dst : IVec ⟨1, ![M]⟩ 32) : FVec Ideal ⟨1, ![N]⟩ .f32 :=
  Host.scatterAdd (vecScatterDims N M wfSv)
    (broadcastInDim ⟨1, ![N]⟩ ![] hb0N (constant ⟨0, ![]⟩ .f32 0x00000000#32)) (col hbcol dst)
    (broadcastInDim ⟨1, ![M]⟩ ![] hb0M (constant ⟨0, ![]⟩ .f32 0x3F800000#32))

/-- d = deg^(−1/2). -/
def dinv (dst : IVec ⟨1, ![M]⟩ 32) : FVec Ideal ⟨1, ![N]⟩ .f32 :=
  Host.rsqrt (deg hb0M hb0N hbcol wfSv dst)

/-- The in-degree of n is the number of pairs whose target is n. -/
theorem deg_apply (dst : IVec ⟨1, ![M]⟩ 32) (n : Fin N) :
    deg hb0M hb0N hbcol wfSv dst (ix1 n)
      = 0 + ∑ _e ∈ Finset.univ.filter (fun e : Fin M => (dst (ix1 e)).toInt = (n.val : Int)), (1 : EReal) := by
  show Ideal.hostScatterAdd (vecScatterDims N M wfSv) _ _ _ (ix1 n) = _
  rw [vecScatterAdd_apply]
  have h0 : (broadcastInDim ⟨1, ![N]⟩ ![] hb0N (constant (F := Ideal) ⟨0, ![]⟩ .f32 0x00000000#32)) (ix1 n) = 0 :=
    Ideal.ofBits_zero_f32
  have h1 : ∀ e : Fin M, (broadcastInDim ⟨1, ![M]⟩ ![] hb0M (constant (F := Ideal) ⟨0, ![]⟩ .f32 0x3F800000#32)) (ix1 e) = 1 :=
    fun _ => Ideal.ofBits_one_f32
  rw [h0]
  congr 1
  refine Finset.sum_congr ?_ (fun e _ => h1 e)
  refine Finset.filter_congr (fun e _ => ?_)
  rw [col_apply]

/-- When every node is the target of some pair, every in-degree is a real and at least one. -/
theorem deg_real_pos (dst : IVec ⟨1, ![M]⟩ 32)
    (hself : ∀ n : Fin N, ∃ e : Fin M, (dst (ix1 e)).toInt = (n.val : Int)) (n : Fin N) :
    IsReal (deg hb0M hb0N hbcol wfSv dst (ix1 n)) ∧ 0 < deg hb0M hb0N hbcol wfSv dst (ix1 n) := by
  rw [deg_apply]
  refine ⟨isReal_zero.add (isReal_sum _ _ fun _ _ => isReal_one), ?_⟩
  obtain ⟨e, he⟩ := hself n
  have hmem : e ∈ Finset.univ.filter (fun e : Fin M => (dst (ix1 e)).toInt = (n.val : Int)) :=
    Finset.mem_filter.mpr ⟨Finset.mem_univ _, he⟩
  have hle : (1 : EReal) ≤ ∑ _e ∈ Finset.univ.filter (fun e : Fin M => (dst (ix1 e)).toInt = (n.val : Int)), (1 : EReal) :=
    Finset.single_le_sum (f := fun _ => (1 : EReal)) (fun _ _ => zero_le_one) hmem
  rw [zero_add]
  exact lt_of_lt_of_le zero_lt_one hle

/-- … and d is real everywhere. -/
theorem allReal_dinv (dst : IVec ⟨1, ![M]⟩ 32)
    (hself : ∀ n : Fin N, ∃ e : Fin M, (dst (ix1 e)).toInt = (n.val : Int)) :
    AllReal (dinv hb0M hb0N hbcol wfSv dst) := by
  intro i
  obtain ⟨n, rfl⟩ : ∃ n : Fin N, i = ix1 n := ⟨i 0, eq_ix1 i⟩
  have h := deg_real_pos hb0M hb0N hbcol wfSv dst hself n
  exact isReal_rsqrt h.1 h.2

end Degrees

/-! ## The two arrangements of a layer -/

section Arrangements

variable (hb0M : (⟨0, ![]⟩ : Shape).BroadcastsInDim ⟨1, ![M]⟩ (![] : Fin 0 → Fin 1))
  (hb0NC : (⟨0, ![]⟩ : Shape).BroadcastsInDim ⟨2, ![N, C]⟩ (![] : Fin 0 → Fin 2))
  (hbcol : (⟨1, ![M]⟩ : Shape).BroadcastsInDim ⟨2, ![M, 1]⟩ (![0] : Fin 1 → Fin 2))
  (hbN1 : (⟨1, ![N]⟩ : Shape).BroadcastsInDim ⟨2, ![N, 1]⟩ (![0] : Fin 1 → Fin 2))
  (hbN1NC : (⟨2, ![N, 1]⟩ : Shape).BroadcastsInDim ⟨2, ![N, C]⟩ (![0, 1] : Fin 2 → Fin 2))
  (hbM1MC : (⟨2, ![M, 1]⟩ : Shape).BroadcastsInDim ⟨2, ![M, C]⟩ (![0, 1] : Fin 2 → Fin 2))
  (hbC1C : (⟨1, ![C]⟩ : Shape).BroadcastsInDim ⟨2, ![1, C]⟩ (![1] : Fin 1 → Fin 2))
  (hb1CNC : (⟨2, ![1, C]⟩ : Shape).BroadcastsInDim ⟨2, ![N, C]⟩ (![0, 1] : Fin 2 → Fin 2))
  (wfGr : GatherDims.WF ⟨2, ![N, C]⟩ ⟨2, ![M, 1]⟩ ⟨2, ![M, C]⟩ [1] [0] [] [0] [] 1 ![1, C])
  (wfSr : ScatterDims.WF ⟨2, ![N, C]⟩ ⟨2, ![M, 1]⟩ ⟨2, ![M, C]⟩ [1] [0] [0] 1)
  (wfGv : GatherDims.WF ⟨1, ![N]⟩ ⟨2, ![M, 1]⟩ ⟨1, ![M]⟩ [] [0] [] [0] [] 1 ![1])
  (nW : BitVec 32)

/-- A vector of N entries as a column. -/
def ncol (dv : FVec Ideal ⟨1, ![N]⟩ .f32) : FVec Ideal ⟨2, ![N, 1]⟩ .f32 :=
  broadcastInDim ⟨2, ![N, 1]⟩ ![0] hbN1 dv

/-- A column beside every column of an N × C matrix. -/
def beside (v : FVec Ideal ⟨2, ![N, 1]⟩ .f32) : FVec Ideal ⟨2, ![N, C]⟩ .f32 :=
  broadcastInDim ⟨2, ![N, C]⟩ ![0, 1] hbN1NC v

/-- The bias under every row. -/
def biasRows (b : FVec Ideal ⟨1, ![C]⟩ .f32) : FVec Ideal ⟨2, ![N, C]⟩ .f32 :=
  broadcastInDim ⟨2, ![N, C]⟩ ![0, 1] hb1CNC (broadcastInDim ⟨2, ![1, C]⟩ ![1] hbC1C b)

/-- The N × C matrix of zeros. -/
def zerosNC : FVec Ideal ⟨2, ![N, C]⟩ .f32 :=
  broadcastInDim ⟨2, ![N, C]⟩ ![] hb0NC (constant ⟨0, ![]⟩ .f32 0x00000000#32)

/-- Arrangement one: rows of `hs` looked up at the sources, added into the targets, the sums scaled by the column
    `v`, plus the bias. -/
def scaledLayer (src dst : IVec ⟨1, ![M]⟩ 32) (v : FVec Ideal ⟨2, ![N, 1]⟩ .f32) (hs : FVec Ideal ⟨2, ![N, C]⟩ .f32)
    (b : FVec Ideal ⟨1, ![C]⟩ .f32) : FVec Ideal ⟨2, ![N, C]⟩ .f32 :=
  addf (mulf (Host.scatterAdd (rowScatterDims N M C wfSr) (zerosNC hb0NC) (col hbcol dst)
      (Host.gather (rowGatherDims N M C wfGr) hs (col hbcol (wrap hb0M nW src))))
      (beside hbN1NC v))
    (biasRows hbC1C hb1CNC b)

/-- Arrangement two: every pair weighted by d (source) · d (target). -/
def weightedLayer (src dst : IVec ⟨1, ![M]⟩ 32) (dv : FVec Ideal ⟨1, ![N]⟩ .f32) (H : FVec Ideal ⟨2, ![N, C]⟩ .f32)
    (b : FVec Ideal ⟨1, ![C]⟩ .f32) : FVec Ideal ⟨2, ![N, C]⟩ .f32 :=
  addf (Host.scatterAdd (rowScatterDims N M C wfSr) (zerosNC hb0NC) (col hbcol dst)
      (mulf (Host.gather (rowGatherDims N M C wfGr) H (col hbcol (wrap hb0M nW src)))
        (broadcastInDim ⟨2, ![M, C]⟩ ![0, 1] hbM1MC (col hbcol
          (mulf (Host.gather (vecGatherDims N M wfGv) dv (col hbcol (wrap hb0M nW src)))
            (Host.gather (vecGatherDims N M wfGv) dv (col hbcol (wrap hb0M nW dst))))))))
    (biasRows hbC1C hb1CNC b)

theorem ncol_apply (dv : FVec Ideal ⟨1, ![N]⟩ .f32) (n : Fin N) (u : Fin 1) : ncol hbN1 dv (ix2 n u) = dv (ix1 n) :=
  HostRows.bcast_a_a1_apply ![0] rfl hbN1 dv n u

theorem beside_apply (v : FVec Ideal ⟨2, ![N, 1]⟩ .f32) (n : Fin N) (k : Fin C) :
    beside hbN1NC v (ix2 n k) = v (ix2 n (0 : Fin 1)) :=
  HostRows.bcast_a1_ab_apply ![0, 1] rfl hbN1NC v n k

theorem biasRows_apply (b : FVec Ideal ⟨1, ![C]⟩ .f32) (n : Fin N) (k : Fin C) :
    biasRows hbC1C hb1CNC b (ix2 n k) = b (ix1 k) :=
  (HostRows.bcast_1b_ab_apply ![0, 1] rfl hb1CNC _ n k).trans (HostRows.bcast_b_1b_apply ![1] rfl hbC1C b 0 k)

theorem zerosNC_apply (j : (⟨2, ![N, C]⟩ : Shape).Idx) : zerosNC (N := N) (C := C) hb0NC j = 0 :=
  Ideal.ofBits_zero_f32

/-- Arrangement one at (n, k). -/
theorem scaledLayer_apply (hN : 0 < N) (src dst : IVec ⟨1, ![M]⟩ 32) (v : FVec Ideal ⟨2, ![N, 1]⟩ .f32)
    (hs : FVec Ideal ⟨2, ![N, C]⟩ .f32) (b : FVec Ideal ⟨1, ![C]⟩ .f32) (n : Fin N) (k : Fin C) :
    scaledLayer hb0M hb0NC hbcol hbN1NC hbC1C hb1CNC wfGr wfSr nW src dst v hs b (ix2 n k)
      = (0 + ∑ e ∈ Finset.univ.filter (fun e : Fin M => (dst (ix1 e)).toInt = (n.val : Int)),
            hs (ix2 (gatherRow hN (col hbcol (wrap hb0M nW src)) e) k)) * v (ix2 n (0 : Fin 1)) + b (ix1 k) := by
  unfold scaledLayer
  rw [addf_apply, mulf_apply, biasRows_apply, beside_apply]
  show (Ideal.hostScatterAdd (rowScatterDims N M C wfSr) _ _ _ (ix2 n k)) * _ + _ = _
  rw [rowScatterAdd_apply, zerosNC_apply]
  congr 3
  refine Finset.sum_congr (Finset.filter_congr (fun e _ => by rw [col_apply])) (fun e _ => ?_)
  exact rowGather_apply hN wfGr hs _ e k

/-- Arrangement two at (n, k). -/
theorem weightedLayer_apply (hN : 0 < N) (src dst : IVec ⟨1, ![M]⟩ 32) (dv : FVec Ideal ⟨1, ![N]⟩ .f32)
    (H : FVec Ideal ⟨2, ![N, C]⟩ .f32) (b : FVec Ideal ⟨1, ![C]⟩ .f32) (n : Fin N) (k : Fin C) :
    weightedLayer hb0M hb0NC hbcol hbM1MC hbC1C hb1CNC wfGr wfSr wfGv nW src dst dv H b (ix2 n k)
      = (0 + ∑ e ∈ Finset.univ.filter (fun e : Fin M => (dst (ix1 e)).toInt = (n.val : Int)),
            H (ix2 (gatherRow hN (col hbcol (wrap hb0M nW src)) e) k)
              * (dv (ix1 (gatherElt hN (col hbcol (wrap hb0M nW src)) e))
                  * dv (ix1 (gatherElt hN (col hbcol (wrap hb0M nW dst)) e)))) + b (ix1 k) := by
  unfold weightedLayer
  rw [addf_apply, biasRows_apply]
  show (Ideal.hostScatterAdd (rowScatterDims N M C wfSr) _ _ _ (ix2 n k)) + _ = _
  rw [rowScatterAdd_apply, zerosNC_apply]
  congr 2
  refine Finset.sum_congr (Finset.filter_congr (fun e _ => by rw [col_apply])) (fun e _ => ?_)
  rw [mulf_apply, rowGather_apply hN wfGr H _ e k,
    HostRows.bcast_a1_ab_apply ![0, 1] rfl hbM1MC _ e k, col_apply, mulf_apply,
    vecGather_apply hN wfGv dv _ e, vecGather_apply hN wfGv dv _ e]

/-- A layer in arrangement two has real entries when H, d and b have. -/
theorem allReal_weightedLayer (src dst : IVec ⟨1, ![M]⟩ 32) {dv : FVec Ideal ⟨1, ![N]⟩ .f32}
    {H : FVec Ideal ⟨2, ![N, C]⟩ .f32} {b : FVec Ideal ⟨1, ![C]⟩ .f32} (hd : AllReal dv) (hH : AllReal H)
    (hb : AllReal b) :
    AllReal (weightedLayer hb0M hb0NC hbcol hbM1MC hbC1C hb1CNC wfGr wfSr wfGv nW src dst dv H b) := by
  unfold weightedLayer
  refine allReal_addf (allReal_scatterAdd _ _ ?_ ?_) ?_
  · exact allReal_broadcastInDim _ _ (allReal_constant_f32 _ (by decide))
  · refine allReal_mulf (allReal_gather _ _ hH) ?_
    refine allReal_broadcastInDim _ _ (allReal_broadcastInDim _ _ ?_)
    exact allReal_mulf (allReal_gather _ _ hd) (allReal_gather _ _ hd)
  · exact allReal_broadcastInDim _ _ (allReal_broadcastInDim _ _ hb)

/-- THE TWO ARRANGEMENTS AGREE: with d a real everywhere and H real, scaling H by d before the lookup and the sums by
    d afterwards is weighting every pair by d (source) · d (target). -/
theorem scaledLayer_eq_weightedLayer (hN : 0 < N) (src dst : IVec ⟨1, ![M]⟩ 32) (dv : FVec Ideal ⟨1, ![N]⟩ .f32)
    (H : FVec Ideal ⟨2, ![N, C]⟩ .f32) (b : FVec Ideal ⟨1, ![C]⟩ .f32) (hd : AllReal dv) (hH : AllReal H) :
    scaledLayer hb0M hb0NC hbcol hbN1NC hbC1C hb1CNC wfGr wfSr nW src dst (ncol hbN1 dv)
        (mulf H (beside hbN1NC (ncol hbN1 dv))) b
      = weightedLayer hb0M hb0NC hbcol hbM1MC hbC1C hb1CNC wfGr wfSr wfGv nW src dst dv H b := by
  funext j
  obtain ⟨n, k, rfl⟩ : ∃ (n : Fin N) (k : Fin C), j = ix2 n k := ⟨j 0, j 1, eq_ix2 j⟩
  rw [scaledLayer_apply (hN := hN), weightedLayer_apply (hN := hN), ncol_apply]
  congr 1
  rw [zero_add, zero_add]
  rw [sum_mul_of_real _ _ (fun e _ => ?_) (hd _)]
  · refine Finset.sum_congr rfl (fun e he => ?_)
    have hkey : (dst (ix1 e)).toInt = (n.val : Int) := (Finset.mem_filter.mp he).2
    -- the wrapped and clamped target of a pair that lands on n is n
    have hrow : gatherElt hN (col hbcol (wrap hb0M nW dst)) e = n := by
      refine Fin.ext ?_
      show min ((col hbcol (wrap hb0M nW dst)) (ix2 e 0)).toInt.toNat (N - 1) = n.val
      rw [col_apply, wrap_of_nonneg hb0M nW dst e (by rw [hkey]; exact Int.natCast_nonneg _), hkey]
      have := n.isLt
      omega
    rw [hrow, mulf_apply, beside_apply, ncol_apply, mul_assoc]
    rfl
  · rw [mulf_apply]
    exact (hH _).mul (by rw [beside_apply, ncol_apply]; exact hd _)

end Arrangements

end Layer

end Cert.GcnLayer

end
-- ==== Proof.RefSpec.lean ====
/-
  The reference program's result as two layers in the weighted arrangement.

  The reference computes, on the host: the stacked index vectors; H₁ = x · W₁; the in-degrees and d = deg^(−1/2); the
  first layer with every pair weighted by d (source) · d (target), plus b₁; its positive part; H₂ = that · W₂; the
  degrees and d once more (the same term); and the second layer, plus b₂. Read as one term of the argument arrays it
  is the composition below.
-/
import proofs.«162736_j42374147342368_2_alg».proof.Proof.Gen.ReferenceIdeal.Run
import proofs.«162736_j42374147342368_2_alg».proof.Proof.LibGcnLayer

noncomputable section

namespace Cert.ReferenceIdeal.RefSpec

open Idealize.ShloMosaic Idealize.ShloMosaic.TcCoe Idealize.SL.Sem Cert.ReferenceIdeal Cert.GcnLayer
open Cert.ReferenceIdeal.Facts₀ Cert.ReferenceIdeal.Facts

variable [Cert.ReferenceIdeal.Facts]

/-- The edge sources followed by the node numbers. -/
def src3 (a1 : IVec S2x3200000 32) : IVec S3300000 32 :=
  concatenate S3300000 0 [⟨S3200000, (shapeCast _ (extractStridedSlice S1x3200000 ![0, 0] a1 slices_S2x3200000_S1x3200000_0_0) shapeCasts_S1x3200000_S3200000)⟩, ⟨S100000, (iotaInDim S100000 32 0)⟩] concatenates_S3200000_S100000_S3300000_d0

/-- The edge targets followed by the node numbers. -/
def dst6 (a1 : IVec S2x3200000 32) : IVec S3300000 32 :=
  concatenate S3300000 0 [⟨S3200000, (shapeCast _ (extractStridedSlice S1x3200000 ![1, 0] a1 slices_S2x3200000_S1x3200000_1_0) shapeCasts_S1x3200000_S3200000)⟩, ⟨S100000, (iotaInDim S100000 32 0)⟩] concatenates_S3200000_S100000_S3300000_d0

/-- d = deg^(−1/2) of the stacked targets. -/
def dv (a1 : IVec S2x3200000 32) : FVec Ideal S100000 .f32 :=
  dinv (N := 100000) (M := 3300000) bcast_S_S3300000 bcast_S_S100000 bcast_S3300000_S3300000x1_0
    scatter_S100000_S3300000x1_S3300000_n_0_0_1_wf (dst6 a1)

/-- The first layer: H₁ = x · W₁, every pair weighted, plus b₁. -/
def layer1 (a0 : FVec Ideal S100000x512 .f32) (a1 : IVec S2x3200000 32) (a2 : FVec Ideal S512x16 .f32)
    (a3 : FVec Ideal S16 .f32) : FVec Ideal S100000x16 .f32 :=
  weightedLayer (N := 100000) (M := 3300000) (C := 16) bcast_S_S3300000 bcast_S_S100000x16 bcast_S3300000_S3300000x1_0
    bcast_S3300000x1_S3300000x16_0_1 bcast_S16_S1x16_1 bcast_S1x16_S100000x16_0_1
    gather_S100000x16_S3300000x1_S3300000x16_1_0_n_n_0_1_116_wf scatter_S100000x16_S3300000x1_S3300000x16_1_0_0_1_wf
    gather_S100000_S3300000x1_S3300000_n_0_n_n_0_1_1_wf 100000#32 (src3 a1) (dst6 a1) (dv a1)
    (Host.dotGeneral dot_S100000x512_S512x16_S100000x16_1_0_0_1_n_n none a0 a2) a3

/-- The second product, of the positive part of the first layer. -/
def feat2 (x : FVec Ideal S100000x16 .f32) (a4 : FVec Ideal S16x2 .f32) : FVec Ideal S100000x2 .f32 :=
  Host.dotGeneral dot_S100000x16_S16x2_S100000x2_1_0_0_1_n_n none
    (maximumf x (broadcastInDim S100000x16 ![] bcast_S_S100000x16 (constant S_ .f32 0x00000000#32))) a4

/-- The whole reference. -/
def result (a0 : FVec Ideal S100000x512 .f32) (a1 : IVec S2x3200000 32) (a2 : FVec Ideal S512x16 .f32)
    (a3 : FVec Ideal S16 .f32) (a4 : FVec Ideal S16x2 .f32) (a5 : FVec Ideal S2 .f32) : FVec Ideal S100000x2 .f32 :=
  weightedLayer (N := 100000) (M := 3300000) (C := 2) bcast_S_S3300000 bcast_S_S100000x2 bcast_S3300000_S3300000x1_0
    bcast_S3300000x1_S3300000x2_0_1 bcast_S2_S1x2_1 bcast_S1x2_S100000x2_0_1
    gather_S100000x2_S3300000x1_S3300000x2_1_0_n_n_0_1_12_wf scatter_S100000x2_S3300000x1_S3300000x2_1_0_0_1_wf
    gather_S100000_S3300000x1_S3300000_n_0_n_n_0_1_1_wf 100000#32 (src3 a1) (dst6 a1) (dv a1)
    (feat2 (layer1 a0 a1 a2 a3) a4) a5

set_option maxRecDepth 8192 in
/-- The run's result term is that composition. -/
theorem res_eq (m : (ℓ : Loc nD τ sig) → Buf (Elt Ideal) ℓ) (c : Dev nD) :
    Value.res_main_v81 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Value.res_main_v81
  rfl

end Cert.ReferenceIdeal.RefSpec

end
-- ==== Proof.LibStackedRows.lean ====
/-
  Two matrices stacked one on top of the other, read at an index; and the words that number the rows of a matrix.

  A matrix made of a block of E rows on top of a block of N rows reads, in one of the first E rows, the top block at
  that row, and in row E + i, the bottom block at row i. The 32-bit word that carries a row number i below 2^31 is
  not negative when read signed, and reads back, signed, as i.
-/
import Idealize.ShloMosaic.Lib.ValueIdx
import Idealize.ShloMosaic.Lib.Pipeline.Value

noncomputable section

namespace Idealize.ShloMosaic.SelfLoops

open Idealize.ShloMosaic Idealize.ShloMosaic.ValueIdx

/-! ## Rows stacked -/

section Stacked
variable {α : Type}

/-- One on top of the other along the rows: a row of the top block. -/
theorem rows_top {E N M C : Nat} (x₁ : (⟨2, ![E, C]⟩ : Shape).Idx → α) (x₂ : (⟨2, ![N, C]⟩ : Shape).Idx → α)
    (h : Shape.Concatenates [⟨2, ![E, C]⟩, ⟨2, ![N, C]⟩] ⟨2, ![M, C]⟩ (0 : Fin 2)) (e : Fin E) (k : Fin C) (e' : Fin M)
    (he : e'.val = e.val) :
    concatenate ⟨2, ![M, C]⟩ (0 : Fin 2) [⟨⟨2, ![E, C]⟩, x₁⟩, ⟨⟨2, ![N, C]⟩, x₂⟩] h (ix2 e' k) = x₁ (ix2 e k) :=
  concatenate_pair_apply_left (t := ⟨2, ![M, C]⟩) (s₁ := ⟨2, ![E, C]⟩) (s₂ := ⟨2, ![N, C]⟩) (0 : Fin 2) x₁ x₂ h (ix2 e' k) rfl
    (ix2 e k) (fun b => match b with | ⟨0, _⟩ => he.symm | ⟨1, _⟩ => rfl)

/-- One on top of the other along the rows: row E + i of the whole is row i of the bottom block. -/
theorem rows_bottom {E N M C : Nat} (x₁ : (⟨2, ![E, C]⟩ : Shape).Idx → α) (x₂ : (⟨2, ![N, C]⟩ : Shape).Idx → α)
    (h : Shape.Concatenates [⟨2, ![E, C]⟩, ⟨2, ![N, C]⟩] ⟨2, ![M, C]⟩ (0 : Fin 2)) (i : Fin N) (k : Fin C) (e' : Fin M)
    (he : e'.val = E + i.val) :
    concatenate ⟨2, ![M, C]⟩ (0 : Fin 2) [⟨⟨2, ![E, C]⟩, x₁⟩, ⟨⟨2, ![N, C]⟩, x₂⟩] h (ix2 e' k) = x₂ (ix2 i k) :=
  concatenate_pair_apply_right (t := ⟨2, ![M, C]⟩) (s₁ := ⟨2, ![E, C]⟩) (s₂ := ⟨2, ![N, C]⟩) (0 : Fin 2) x₁ x₂ h (ix2 e' k) rfl rfl
    (ix2 i k) (fun b hb => match b, hb with
      | ⟨0, _⟩, hb => absurd rfl hb
      | ⟨1, _⟩, _ => rfl) (by show i.val + E = e'.val; omega)

end Stacked

/-! ## A sum over the rows of a stacked array -/

section Sums
open scoped BigOperators

/-- Among the numbers below N exactly n equals n: a sum over them of a term that is present only at n is that
    term. -/
theorem sum_ite_natCast_eq {N : Nat} {A : Type} [AddCommMonoid A] (n : Fin N) (f : Fin N → A) :
    (∑ i : Fin N, if (i.val : Int) = (n.val : Int) then f i else 0) = f n := by
  rw [Finset.sum_eq_single n]
  · rw [if_pos rfl]
  · intro b _ hb
    rw [if_neg]
    intro h
    exact hb (Fin.ext (by exact_mod_cast h))
  · intro h
    exact absurd (Finset.mem_univ n) h

/-- The rows of a stacked array are the M = E + N numbers below M; row e' carries a key (an integer) and a term. The
    first E rows carry the keys and terms of an array of E rows, row E + i carries the key i and the term g i. Then
    the sum of the terms of the rows whose key is n is the same sum over the E rows plus g n: the rows split into the
    first E and the last N, and among the last N exactly row E + n has key n. In a commutative monoid. -/
theorem sum_filter_stacked {A : Type} [AddCommMonoid A] {N E M : Nat} (hM : M = E + N)
    (key' : Fin M → Int) (key : Fin E → Int) (f' : Fin M → A) (f : Fin E → A) (g : Fin N → A)
    (hkey : ∀ (e : Fin E) (e' : Fin M), e'.val = e.val → key' e' = key e)
    (hloop : ∀ (i : Fin N) (e' : Fin M), e'.val = E + i.val → key' e' = (i.val : Int))
    (hf : ∀ (e : Fin E) (e' : Fin M), e'.val = e.val → f' e' = f e)
    (hg : ∀ (i : Fin N) (e' : Fin M), e'.val = E + i.val → f' e' = g i) (n : Fin N) :
    ∑ e' ∈ Finset.univ.filter (fun e' : Fin M => key' e' = (n.val : Int)), f' e'
      = ∑ e ∈ Finset.univ.filter (fun e : Fin E => key e = (n.val : Int)), f e + g n := by
  subst hM
  rw [Finset.sum_filter, Finset.sum_filter, Fin.sum_univ_add]
  congr 1
  · -- the first E rows: the same keys and the same terms
    refine Finset.sum_congr rfl (fun e _ => ?_)
    rw [hkey e (Fin.castAdd N e) rfl, hf e (Fin.castAdd N e) rfl]
  · -- the last N rows: row E + i has key i and term g i
    refine (Finset.sum_congr rfl (fun i _ => ?_)).trans (sum_ite_natCast_eq n g)
    rw [hloop i (Fin.natAdd E i) rfl, hg i (Fin.natAdd E i) rfl]

end Sums

/-! ## The word of a row number -/

/-- The 32-bit word of a number below 2^31 reads back, signed, as that number. -/
theorem toInt_ofNat_of_lt {i : Nat} (hi : i < 2 ^ 31) : (BitVec.ofNat 32 i).toInt = (i : Int) := by
  have h31 : (2 : Nat) ^ 31 = 2147483648 := by norm_num
  have h32 : (2 : Nat) ^ 32 = 4294967296 := by norm_num
  have hn : (BitVec.ofNat 32 i).toNat = i := by
    rw [BitVec.toNat_ofNat]; exact Nat.mod_eq_of_lt (by omega)
  rw [BitVec.toInt_eq_toNat_of_lt (by rw [hn]; omega), hn]

/-- … and, made a natural number again, is that number. -/
theorem toInt_toNat_ofNat_of_lt {i : Nat} (hi : i < 2 ^ 31) : (BitVec.ofNat 32 i).toInt.toNat = i := by
  rw [toInt_ofNat_of_lt hi]; rfl

/-- The word of a number below 2^31 is not negative: the signed comparison with the zero word is false. -/
theorem cmpi_slt_zero_ofNat_of_lt {i : Nat} (hi : i < 2 ^ 31) :
    IntOp.cmpi .slt (BitVec.ofNat 32 i) 0#32 = 0#1 := by
  have h : (BitVec.ofNat 32 i).slt 0#32 = false := by
    rw [BitVec.slt, toInt_ofNat_of_lt hi]
    simp
  show BitVec.ofBool ((BitVec.ofNat 32 i).slt 0#32) = 0#1
  rw [h]; rfl

/-- The wrap-around of negative indices, "if v < 0 then v + n else v", leaves the word of a number below 2^31 as it
    is. -/
theorem select_wrap_ofNat_of_lt {i : Nat} (hi : i < 2 ^ 31) (n : BitVec 32) :
    Scalar.select (IntOp.cmpi .slt (BitVec.ofNat 32 i) 0#32) (IntOp.addi (BitVec.ofNat 32 i) n) (BitVec.ofNat 32 i)
      = BitVec.ofNat 32 i := by
  rw [cmpi_slt_zero_ofNat_of_lt hi]
  unfold Scalar.select
  rw [if_neg (by decide)]

/-- The word of a row number i of a matrix of N ≤ 2^31 rows reads back, signed, as i. -/
theorem toInt_ofNat_fin {N : Nat} (hN : N ≤ 2 ^ 31) (i : Fin N) : (BitVec.ofNat 32 i.val).toInt = (i.val : Int) :=
  toInt_ofNat_of_lt (lt_of_lt_of_le i.isLt hN)

/-- The word of a row number of a matrix of N ≤ 2^31 rows is not negative. -/
theorem cmpi_slt_zero_ofNat_fin {N : Nat} (hN : N ≤ 2 ^ 31) (i : Fin N) :
    IntOp.cmpi .slt (BitVec.ofNat 32 i.val) 0#32 = 0#1 :=
  cmpi_slt_zero_ofNat_of_lt (lt_of_lt_of_le i.isLt hN)

/-- The wrap-around of negative indices leaves the word of a row number of a matrix of N ≤ 2^31 rows as it is. -/
theorem select_wrap_ofNat_fin {N : Nat} (hN : N ≤ 2 ^ 31) (i : Fin N) (n : BitVec 32) :
    Scalar.select (IntOp.cmpi .slt (BitVec.ofNat 32 i.val) 0#32) (IntOp.addi (BitVec.ofNat 32 i.val) n)
      (BitVec.ofNat 32 i.val) = BitVec.ofNat 32 i.val :=
  select_wrap_ofNat_of_lt (lt_of_lt_of_le i.isLt hN) n

end Idealize.ShloMosaic.SelfLoops

end
-- ==== Proof.LibNodeNumbers.lean ====
/-
  The node numbers stacked under a vector of words.

  A vector of E words followed by the node numbers 0 … N − 1 (the 32-bit words of an iota) has, at position E + n, the
  word of n, and that word reads back, signed, as n — so among E + N pairs whose targets are such a vector every node
  is the target of at least one pair: its own self pair.
-/
import Idealize.ShloMosaic.Lib.ValueIdx
import Idealize.ShloMosaic.Lib.Pipeline.Value
import proofs.«162736_j42374147342368_2_alg».proof.Proof.LibStackedRows

noncomputable section

namespace Cert.NodeNumbers

open Idealize.ShloMosaic Idealize.ShloMosaic.ValueIdx

/-- Position E + n of a vector of E words followed by the node numbers holds the word of n. -/
theorem stacked_iota_apply {E N M : Nat} (hM : M = E + N) (x : IVec ⟨1, ![E]⟩ 32)
    (h : Shape.Concatenates [⟨1, ![E]⟩, ⟨1, ![N]⟩] ⟨1, ![M]⟩ (0 : Fin 1)) (n : Fin N) :
    concatenate ⟨1, ![M]⟩ (0 : Fin 1) [⟨⟨1, ![E]⟩, x⟩, ⟨⟨1, ![N]⟩, iotaInDim ⟨1, ![N]⟩ 32 0⟩] h
        (ix1 (⟨E + n.val, by have := n.isLt; omega⟩ : Fin M)) = BitVec.ofNat 32 n.val :=
  concatenate_pair_apply_right (t := ⟨1, ![M]⟩) (s₁ := ⟨1, ![E]⟩) (s₂ := ⟨1, ![N]⟩) (0 : Fin 1) x
    (iotaInDim ⟨1, ![N]⟩ 32 0) h (ix1 (⟨E + n.val, by have := n.isLt; omega⟩ : Fin M)) rfl rfl (ix1 n)
    (fun b hb => match b, hb with | ⟨0, _⟩, hb => absurd rfl hb) (by show n.val + E = E + n.val; omega)

/-- Every node is the target of its self pair: some position of the stacked vector reads, signed, as n. -/
theorem exists_self {E N M : Nat} (hM : M = E + N) (hN : N ≤ 2 ^ 31) (x : IVec ⟨1, ![E]⟩ 32)
    (h : Shape.Concatenates [⟨1, ![E]⟩, ⟨1, ![N]⟩] ⟨1, ![M]⟩ (0 : Fin 1)) (n : Fin N) :
    ∃ e : Fin M, (concatenate ⟨1, ![M]⟩ (0 : Fin 1) [⟨⟨1, ![E]⟩, x⟩, ⟨⟨1, ![N]⟩, iotaInDim ⟨1, ![N]⟩ 32 0⟩] h
        (ix1 e)).toInt = (n.val : Int) :=
  ⟨⟨E + n.val, by have := n.isLt; omega⟩, by
    rw [stacked_iota_apply hM x h n]; exact SelfLoops.toInt_ofNat_fin hN n⟩

end Cert.NodeNumbers

end
-- ==== Proof.Bridge.lean ====
/-
  The kernel's program and the reference compute the same array, on real inputs.

  Both programs stack the node numbers under the edge list, so every node is the target of its own self pair and
  d = deg^(−1/2) is a positive real. The kernel's region hands back the features H₁ = x · W₁ already scaled by d; its
  host tail is two layers in the "scale before the lookup, scale the sums after" arrangement. The reference forms H₁ by
  one product and runs two layers in the "weight every pair" arrangement. Layer by layer the two arrangements agree
  because every quantity is a real: H₁ is a finite sum of products of real inputs, the first layer of real H₁, d and b₁
  is real, so is its positive part, so is H₂ = that · W₂.
-/
import proofs.«162736_j42374147342368_2_alg».proof.Proof.KernelTerms
import proofs.«162736_j42374147342368_2_alg».proof.Proof.RefSpec
import proofs.«162736_j42374147342368_2_alg».proof.Proof.LibGcnLayer
import proofs.«162736_j42374147342368_2_alg».proof.Proof.LibNodeNumbers
import proofs.«162736_j42374147342368_2_alg».proof.Proof.LibPlainDot
import proofs.«162736_j42374147342368_2_alg».proof.Proof.LibFinite

noncomputable section

open scoped BigOperators

namespace Cert.Bridge

open Idealize.ShloMosaic Idealize.ShloMosaic.ValueIdx Cert.GcnLayer Cert.LibFinite

variable [Cert.KernelIdeal.Facts] [Cert.ReferenceIdeal.Facts]

/-- Every node is the target of its self pair. -/
theorem exists_self (a1 : IVec ⟨2, ![2, 3200000]⟩ 32) (n : Fin 100000) :
    ∃ e : Fin 3300000, (Cert.ReferenceIdeal.RefSpec.dst6 a1 (ix1 e)).toInt = (n.val : Int) :=
  Cert.NodeNumbers.exists_self (E := 3200000) (N := 100000) (M := 3300000) rfl (by norm_num) _ _ n

/-- d is real. -/
theorem allReal_dv (a1 : IVec ⟨2, ![2, 3200000]⟩ 32) : AllReal (Cert.ReferenceIdeal.RefSpec.dv a1) :=
  allReal_dinv _ _ _ _ _ (exists_self a1)

/-- The kernel's column of d is the reference's d, as a column. -/
theorem dcol_eq (a1 : IVec ⟨2, ![2, 3200000]⟩ 32) :
    Cert.KernelIdeal.Terms.dcol (F := Ideal) (Cert.KernelIdeal.Terms.dst6 a1)
      = ncol (N := 100000) Cert.KernelIdeal.Facts₀.bcast_S100000_S100000x1_0 (Cert.ReferenceIdeal.RefSpec.dv a1) := rfl

/-- THE BRIDGE. `hs13` is what the region leaves: (x · W₁) scaled row by row by d. -/
theorem kernel_eq_reference (a0 : FVec Ideal ⟨2, ![100000, 512]⟩ .f32) (a1 : IVec ⟨2, ![2, 3200000]⟩ 32)
    (a2 : FVec Ideal ⟨2, ![512, 16]⟩ .f32) (a3 : FVec Ideal ⟨1, ![16]⟩ .f32) (a4 : FVec Ideal ⟨2, ![16, 2]⟩ .f32)
    (a5 : FVec Ideal ⟨1, ![2]⟩ .f32) (hs13 : FVec Ideal ⟨2, ![100000, 16]⟩ .f32)
    (hhs : ∀ (r : Fin 100000) (q : Fin 16), hs13 (ix2 r q)
      = (∑ k : Fin 512, a0 (ix2 r k) * a2 (ix2 k q))
          * Cert.KernelIdeal.Terms.dcol (F := Ideal) (Cert.KernelIdeal.Terms.dst6 a1) (ix2 r (0 : Fin 1)))
    (h0 : AllReal a0) (h2 : AllReal a2) (h3 : AllReal a3) (h4 : AllReal a4) :
    Cert.KernelIdeal.Terms.tail47 (F := Ideal) (Cert.KernelIdeal.Terms.src3 a1) (Cert.KernelIdeal.Terms.dst6 a1)
        (Cert.KernelIdeal.Terms.dcol (Cert.KernelIdeal.Terms.dst6 a1)) hs13 a3 a4 a5
      = Cert.ReferenceIdeal.RefSpec.result a0 a1 a2 a3 a4 a5 := by
  have hd := allReal_dv a1
  have hH1 : AllReal (Host.dotGeneral (F := Ideal) Cert.ReferenceIdeal.dot_S100000x512_S512x16_S100000x16_1_0_0_1_n_n none a0 a2) :=
    allReal_dotGeneral _ _ h0 h2
  -- what the region leaves is H₁ with d beside every column
  have e13 : hs13 = mulf (Host.dotGeneral (F := Ideal) Cert.ReferenceIdeal.dot_S100000x512_S512x16_S100000x16_1_0_0_1_n_n none a0 a2)
      (beside (N := 100000) (C := 16) Cert.KernelIdeal.Facts₀.bcast_S100000x1_S100000x16_0_1
        (ncol (N := 100000) Cert.KernelIdeal.Facts₀.bcast_S100000_S100000x1_0 (Cert.ReferenceIdeal.RefSpec.dv a1))) := by
    funext j
    obtain ⟨r, q, rfl⟩ : ∃ (r : Fin 100000) (q : Fin 16), j = ix2 r q := ⟨j 0, j 1, eq_ix2 j⟩
    rw [hhs, mulf_apply, beside_apply, dcol_eq]
    congr 1
    exact (PlainDot.dotGeneral_apply (M := 100000) (K := 512) (N := 16)
      Cert.ReferenceIdeal.Facts₀.dot_S100000x512_S512x16_S100000x16_1_0_0_1_n_n_wf none .single a0 a2 r q).symm
  -- the first layer
  have l1 : Cert.KernelIdeal.Terms.out1 (F := Ideal) (Cert.KernelIdeal.Terms.src3 a1) (Cert.KernelIdeal.Terms.dst6 a1)
      (Cert.KernelIdeal.Terms.dcol (Cert.KernelIdeal.Terms.dst6 a1)) hs13 a3 = Cert.ReferenceIdeal.RefSpec.layer1 a0 a1 a2 a3 := by
    rw [e13]
    exact scaledLayer_eq_weightedLayer (N := 100000) (M := 3300000) (C := 16)
      Cert.KernelIdeal.Facts₀.bcast_S_S3300000 Cert.KernelIdeal.Facts₀.bcast_S_S100000x16 Cert.KernelIdeal.Facts₀.bcast_S3300000_S3300000x1_0 Cert.KernelIdeal.Facts₀.bcast_S100000_S100000x1_0
      Cert.KernelIdeal.Facts₀.bcast_S100000x1_S100000x16_0_1 Cert.ReferenceIdeal.Facts₀.bcast_S3300000x1_S3300000x16_0_1 Cert.KernelIdeal.Facts₀.bcast_S16_S1x16_1
      Cert.KernelIdeal.Facts₀.bcast_S1x16_S100000x16_0_1 Cert.KernelIdeal.Facts₀.gather_S100000x16_S3300000x1_S3300000x16_1_0_n_n_0_1_116_wf
      Cert.KernelIdeal.Facts₀.scatter_S100000x16_S3300000x1_S3300000x16_1_0_0_1_wf Cert.ReferenceIdeal.Facts₀.gather_S100000_S3300000x1_S3300000_n_0_n_n_0_1_1_wf
      100000#32 (by norm_num) (Cert.ReferenceIdeal.RefSpec.src3 a1) (Cert.ReferenceIdeal.RefSpec.dst6 a1)
      (Cert.ReferenceIdeal.RefSpec.dv a1) _ a3 hd hH1
  have hL1 : AllReal (Cert.ReferenceIdeal.RefSpec.layer1 a0 a1 a2 a3) :=
    allReal_weightedLayer _ _ _ _ _ _ _ _ _ _ _ _ hd hH1 h3
  have hH2 : AllReal (Cert.ReferenceIdeal.RefSpec.feat2 (Cert.ReferenceIdeal.RefSpec.layer1 a0 a1 a2 a3) a4) :=
    allReal_dotGeneral _ _
      (allReal_maximumf hL1 (allReal_broadcastInDim _ _ (allReal_constant_f32 _ (by decide)))) h4
  -- the second layer
  show Cert.KernelIdeal.Terms.out2 (F := Ideal) (Cert.KernelIdeal.Terms.src3 a1) (Cert.KernelIdeal.Terms.dst6 a1)
      (Cert.KernelIdeal.Terms.dcol (Cert.KernelIdeal.Terms.dst6 a1))
      (Cert.KernelIdeal.Terms.hs2 (Cert.KernelIdeal.Terms.relu
        (Cert.KernelIdeal.Terms.out1 (Cert.KernelIdeal.Terms.src3 a1) (Cert.KernelIdeal.Terms.dst6 a1)
          (Cert.KernelIdeal.Terms.dcol (Cert.KernelIdeal.Terms.dst6 a1)) hs13 a3)) a4
        (Cert.KernelIdeal.Terms.dcol (Cert.KernelIdeal.Terms.dst6 a1))) a5 = _
  rw [l1]
  exact scaledLayer_eq_weightedLayer (N := 100000) (M := 3300000) (C := 2)
    Cert.KernelIdeal.Facts₀.bcast_S_S3300000 Cert.KernelIdeal.Facts₀.bcast_S_S100000x2 Cert.KernelIdeal.Facts₀.bcast_S3300000_S3300000x1_0 Cert.KernelIdeal.Facts₀.bcast_S100000_S100000x1_0
    Cert.KernelIdeal.Facts₀.bcast_S100000x1_S100000x2_0_1 Cert.ReferenceIdeal.Facts₀.bcast_S3300000x1_S3300000x2_0_1 Cert.KernelIdeal.Facts₀.bcast_S2_S1x2_1
    Cert.KernelIdeal.Facts₀.bcast_S1x2_S100000x2_0_1 Cert.KernelIdeal.Facts₀.gather_S100000x2_S3300000x1_S3300000x2_1_0_n_n_0_1_12_wf
    Cert.KernelIdeal.Facts₀.scatter_S100000x2_S3300000x1_S3300000x2_1_0_0_1_wf Cert.ReferenceIdeal.Facts₀.gather_S100000_S3300000x1_S3300000_n_0_n_n_0_1_1_wf
    100000#32 (by norm_num) (Cert.ReferenceIdeal.RefSpec.src3 a1) (Cert.ReferenceIdeal.RefSpec.dst6 a1)
    (Cert.ReferenceIdeal.RefSpec.dv a1) (Cert.ReferenceIdeal.RefSpec.feat2 (Cert.ReferenceIdeal.RefSpec.layer1 a0 a1 a2 a3) a4) a5 hd hH2

end Cert.Bridge

end
-- ==== Proof.FiniteArgs.lean ====
/-
  The precondition says every float input is finite: every entry is then a real number.

  The precondition is "all |x| < +∞" over each of the five float arrays, joined by "and". On the extended reals
  |x| = max x (−x) is below +∞ exactly when x is neither +∞ nor −∞, that is, when x is a real.
-/
import proofs.«162736_j42374147342368_2_alg».proof.Pre_finite_inputs
import Idealize.ShloMosaic.Lib.ReduceAll
import Idealize.ShloMosaic.Lib.ValueIdx
import Idealize.ShloMosaic.PureOps.Ideal.Laws
import proofs.«162736_j42374147342368_2_alg».proof.Proof.LibFinite

noncomputable section

namespace Cert.FiniteArgs

open Idealize.ShloMosaic Idealize.ShloMosaic.ValueIdx Cert.LibFinite Cert.Pre_finite_inputs

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value is below +∞ is a real. -/
theorem isReal_of_abs_lt (x : EReal)
    (h : Ideal.cmp .olt (max x (-x)) (Ideal.ofBits .f32 0x7F800000#32) = 1#1) : IsReal x := by
  rw [ofBits_inf] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  induction x using EReal.rec with
  | bot => exact absurd hlt (by simp)
  | coe r => exact ⟨r, rfl⟩
  | top => exact absurd hlt (by simp)

/-- "all |x| < +∞" over one array gives real entries. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ix0 = 1#1) : AllReal x := by
  intro i
  have h := Host.reduce_andi_all _ _ hr hu ix0 e i
  exact isReal_of_abs_lt (x i) h

/-- The precondition gives real entries in every float argument. -/
theorem allReal_of_pre [Cert.Pre_finite_inputs.Facts] (a0 : FVec Ideal S100000x512 .f32) (a1 : IVec S2x3200000 32)
    (a2 : FVec Ideal S512x16 .f32) (a3 : FVec Ideal S16 .f32) (a4 : FVec Ideal S16x2 .f32) (a5 : FVec Ideal S2 .f32)
    (h : Cert.Pre_finite_inputs.fn (F := Ideal) a0 a1 a2 a3 a4 a5 = fun _ => 1#1) :
    AllReal a0 ∧ AllReal a2 ∧ AllReal a3 ∧ AllReal a4 ∧ AllReal a5 := by
  have h' := congrFun h ix0
  dsimp only [fn, fn_part1] at h'
  obtain ⟨h4, e5⟩ := IntOp.andi_eq_one.1 h'
  obtain ⟨h3, e4⟩ := IntOp.andi_eq_one.1 h4
  obtain ⟨h2, e3⟩ := IntOp.andi_eq_one.1 h3
  obtain ⟨e0, e2⟩ := IntOp.andi_eq_one.1 h2
  exact ⟨allReal_of_all a0 _ _ _ e0, allReal_of_all a2 _ _ _ e2, allReal_of_all a3 _ _ _ e3,
    allReal_of_all a4 _ _ _ e4, allReal_of_all a5 _ _ _ e5⟩

end Cert.FiniteArgs

end
-- ==== Proof.lean ====
/-
  The certificate of a two-layer graph convolution: the kernel's program against its reference, on the extended reals.

  The graph has N = 100000 nodes and E = 3200000 edges; both programs add the N self loops by stacking the node
  numbers under the edge list, count the in-degrees deg (one per pair whose target is the node) and take
  d = deg^(−1/2). A layer maps features H to  out n = ∑ over the pairs (s, n) of H s · d s · d n + b.  The reference
  evaluates it as written, every pair weighted by d s · d n. The kernel's program scales the rows of H by d before the
  rows are looked up, and the sums by d afterwards; its one region computes the first layer's scaled features
  (x · W₁) · d block of rows by block of rows (the product with operands cast to bf16 into a zero accumulator, which on
  the extended reals is the exact product). The two evaluations agree when the factor d n may be moved across the sum:
  when every quantity is a real. That is where the precondition is used — all float inputs finite —, together with
  the self loops, which make every degree at least 1 and d a positive real.

  The frames are the generated ones; the reference's frame is its generated run with the result dropped. Nothing
  was rewritten when the kernel's program was idealized, so the preservation claim is trivially true.
-/
import proofs.«162736_j42374147342368_2_alg».proof.Defs
import proofs.«162736_j42374147342368_2_alg».proof.Proof.Gen.Kernel
import proofs.«162736_j42374147342368_2_alg».proof.Proof.Gen.Kernel.Frame
import proofs.«162736_j42374147342368_2_alg».proof.Proof.Gen.KernelIdeal
import proofs.«162736_j42374147342368_2_alg».proof.Proof.Gen.KernelIdeal.Frame
import proofs.«162736_j42374147342368_2_alg».proof.Proof.Gen.ReferenceIdeal
import proofs.«162736_j42374147342368_2_alg».proof.Proof.Gen.ReferenceIdeal.Run
import proofs.«162736_j42374147342368_2_alg».proof.Proof.Gen.Pre_finite_inputs
import proofs.«162736_j42374147342368_2_alg».proof.Proof.KernelRun
import proofs.«162736_j42374147342368_2_alg».proof.Proof.KernelBlocks
import proofs.«162736_j42374147342368_2_alg».proof.Proof.RefSpec
import proofs.«162736_j42374147342368_2_alg».proof.Proof.Bridge
import proofs.«162736_j42374147342368_2_alg».proof.Proof.FiniteArgs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same array: the kernel's run leaves the tail of its host operations applied to the
    region's output, the region's output is (x · W₁) · d, the reference's run leaves two weighted layers, and on
    finite inputs these are one function of the arguments. -/
theorem algebraic : Cert.algebraic_KernelIdeal_ReferenceIdeal := by
  intro m ρ m' ρ' hpre hagree
  refine ⟨_, Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, _⟩ := Cert.FiniteArgs.allReal_of_pre _ _ _ _ _ _ (hpre c)
  rw [Cert.ReferenceIdeal.RefSpec.res_eq, (hagree c).1, (hagree c).2.1, (hagree c).2.2.1, (hagree c).2.2.2.1,
    (hagree c).2.2.2.2.1, (hagree c).2.2.2.2.2]
  refine (Cert.Bridge.kernel_eq_reference _ _ _ _ _ _ _ (fun r q => ?_) h0 h2 h3 h4).symm
  rw [Cert.KernelIdeal.Blocks.final3, Cert.KernelIdeal.Blocks.hs_apply, Cert.KernelIdeal.Gen.V_main_arg0,
    Cert.KernelIdeal.Gen.V_main_arg2, Cert.KernelIdeal.KRun.V_v12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
